-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S3x64x64 .f32) (main_arg2 : FVec F S3x64 .f32) (main_arg3 : FVec F S64x64 .f32) (main_arg4 : FVec F S64 .f32) (main_arg5 : IVec S1600000 32) (main_arg6 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x64 : Shape := ⟨2, ![2000, 64]⟩
abbrev S2000x1 : Shape := ⟨2, ![2000, 1]⟩
abbrev S1600000x64 : Shape := ⟨2, ![1600000, 64]⟩
abbrev S1x64x64 : Shape := ⟨3, ![1, 64, 64]⟩
abbrev S1x64 : Shape := ⟨2, ![1, 64]⟩

abbrev nBuf : Space → Nat
  | .hbm => 82
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S3x64x64, .f32⟩
  | .hbm, ⟨2, _⟩ => ⟨S3x64, .f32⟩
  | .hbm, ⟨3, _⟩ => ⟨S64x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S1x64x64, .f32⟩
  | .hbm, ⟨35, _⟩ => ⟨S64x64, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x64x64, .f32⟩
  | .hbm, ⟨76, _⟩ => ⟨S64x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S100000x64, .f32⟩
  | .hbm, ⟨81, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S2000x64, .f32⟩
  | .local _ .vmem, ⟨25, _⟩ => ⟨S2000x64, .f32⟩
  | .local _ .vmem, ⟨26, _⟩ => ⟨S64x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x1, .f32⟩
  | .local _ .vmem, ⟨35, _⟩ => ⟨S2000x1, .f32⟩
  | .local _ .vmem, ⟨36, _⟩ => ⟨S2000x64, .f32⟩
  | .local _ .vmem, ⟨37, _⟩ => ⟨S2000x64, .f32⟩
  | .local _ .vmem, ⟨38, _⟩ => ⟨S64x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58_0 : Ref sig .tc := ⟨.hbm, 80, rfl⟩
abbrev main_v58_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S100000x64.size a
  hwx1_8 : ∀ i : grid1.Coords, EltTy.bits .f32 = 32 ∨ (Rect.block (s := S100000x64) S2000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26_0) S2000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26_1) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v36) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_0) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42_0) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58_0) S2000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v58_1) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3x64x64, .f32⟩
  | .hbm, ⟨2, _⟩ => ⟨S3x64, .f32⟩
  | .hbm, ⟨3, _⟩ => ⟨S64x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x64x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S1x64x64, .f32⟩
  | .hbm, ⟨74, _⟩ => ⟨S64x64, .f32⟩
  | .hbm, ⟨75, _⟩ => ⟨S100000x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x1, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S1x64x64, .f32⟩
  | .hbm, ⟨105, _⟩ => ⟨S64x64, .f32⟩
  | .hbm, ⟨106, _⟩ => ⟨S100000x64, .f32⟩
  | .hbm, ⟨107, _⟩ => ⟨S1x64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | .hbm, ⟨115, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call1_cst : Ref sig .tc := ⟨.hbm, 81, rfl⟩
abbrev main_call1_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_8 : Ref sig .tc := ⟨.hbm, 88, rfl⟩
abbrev main_v67 : Ref sig .tc := ⟨.hbm, 89, rfl⟩
abbrev main_v68 : Ref sig .tc := ⟨.hbm, 90, rfl⟩
abbrev main_c_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_call2_cst : Ref sig .tc := ⟨.hbm, 112, rfl⟩
abbrev main_call2_v0 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValue.lean ====
/-
  The idealized kernel program's run with its result named. The program is four kernel launches among stretches of host
  operations; its frame is proved by chaining, per core, the buffer contents at each boundary (W0 … W8: a stretch of host
  operations applies them to the contents before; a launch leaves each of its arrays at what its write-backs add up to).
  Every weakly fair execution ends with every unscoped buffer at the last boundary's contents W8 — in particular the
  result buffer, which is what is read off here beside the unchanged arguments.
-/
import proofs.«124605_j37666863186543_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v58_0) = W8 m ρ c (Proc.devRef .tc main_v58_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.KernelHost.lean ====
/-
  The host operations of the kernel program, one stretch at a time, as functions of the buffer contents a stretch starts
  from: the column of per-node factors (the in-degrees counted by a scatter-add of ones over the edge targets, clamped
  below by one, raised to the power −1/2, laid out as a 100000×1 column); the propagation of node rows along the edges (a
  gather of the rows at the edge sources, with negative indices wrapped, then a scatter-add over the edge targets into a
  zero array); each layer's weight matrix and bias cut out of the stacked weights and biases; and the buffers a stretch
  leaves as it found them.
-/
import proofs.«124605_j37666863186543_1_alg».proof.Proof.Gen.KernelIdeal.Launch
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- Per node: max(in-degree, 1) to the power −1/2. -/
def degPow (dst : (⟨S1600000, .i32⟩ : BufTy).Contents (Elt F)) : (⟨S100000, .f32⟩ : BufTy).Contents (Elt F) :=
  Host.powf
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

/-- The per-node factors as a 100000×1 column. -/
def factors (dst : (⟨S1600000, .i32⟩ : BufTy).Contents (Elt F)) : (⟨S100000x1, .f32⟩ : BufTy).Contents (Elt F) :=
  shapeCast S100000x1 (degPow dst) shapeCasts_S100000_S100000x1

/-- Node rows sent along the edges: row v of the result is the sum of the rows at the sources of the edges into v. -/
def propagate (h : (⟨S100000x64, .f32⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select
          (cmpi .slt src (broadcastInDim S1600000 ![] bcast_S_S1600000 (constantI S_ 32 0#32)))
          (addi src (broadcastInDim S1600000 ![] bcast_S_S1600000 (constantI S_ 32 100000#32)))
          src)))

/-- The three layers' weight matrices, cut out of the stacked weights. -/
def wmat0 (w : (⟨S3x64x64, .f32⟩ : BufTy).Contents (Elt F)) : (⟨S64x64, .f32⟩ : BufTy).Contents (Elt F) :=
  shapeCast S64x64 (extractStridedSlice S1x64x64 ![0, 0, 0] w slices_S3x64x64_S1x64x64_0_0_0) shapeCasts_S1x64x64_S64x64
def wmat1 (w : (⟨S3x64x64, .f32⟩ : BufTy).Contents (Elt F)) : (⟨S64x64, .f32⟩ : BufTy).Contents (Elt F) :=
  shapeCast S64x64 (extractStridedSlice S1x64x64 ![1, 0, 0] w slices_S3x64x64_S1x64x64_1_0_0) shapeCasts_S1x64x64_S64x64
def wmat2 (w : (⟨S3x64x64, .f32⟩ : BufTy).Contents (Elt F)) : (⟨S64x64, .f32⟩ : BufTy).Contents (Elt F) :=
  shapeCast S64x64 (extractStridedSlice S1x64x64 ![2, 0, 0] w slices_S3x64x64_S1x64x64_2_0_0) shapeCasts_S1x64x64_S64x64

/-- The three layers' biases, cut out of the stacked biases. -/
def bvec0 (b : (⟨S3x64, .f32⟩ : BufTy).Contents (Elt F)) : (⟨S64, .f32⟩ : BufTy).Contents (Elt F) :=
  shapeCast S64 (extractStridedSlice S1x64 ![0, 0] b slices_S3x64_S1x64_0_0) shapeCasts_S1x64_S64
def bvec1 (b : (⟨S3x64, .f32⟩ : BufTy).Contents (Elt F)) : (⟨S64, .f32⟩ : BufTy).Contents (Elt F) :=
  shapeCast S64 (extractStridedSlice S1x64 ![1, 0] b slices_S3x64_S1x64_1_0) shapeCasts_S1x64_S64
def bvec2 (b : (⟨S3x64, .f32⟩ : BufTy).Contents (Elt F)) : (⟨S64, .f32⟩ : BufTy).Contents (Elt F) :=
  shapeCast S64 (extractStridedSlice S1x64 ![2, 0] b slices_S3x64_S1x64_2_0) shapeCasts_S1x64_S64

/-- A bias as the 1×64 row the kernels read. -/
def row (b : (⟨S64, .f32⟩ : BufTy).Contents (Elt F)) : (⟨S1x64, .f32⟩ : BufTy).Contents (Elt F) :=
  shapeCast S1x64 b shapeCasts_S64_S1x64

variable (W : Valuation τ sig (Elt F))

/-! ## The stretch before the first launch -/

theorem h0_v8 : StableHlo.after hostOps0 W (Proc.devRef .tc main_v8) = factors (W (Proc.devRef .tc main_arg6)) := by
  after_results; rfl
theorem h0_arg0 : StableHlo.after hostOps0 W (Proc.devRef .tc main_arg0) = W (Proc.devRef .tc main_arg0) := by after_results
theorem h0_arg1 : StableHlo.after hostOps0 W (Proc.devRef .tc main_arg1) = W (Proc.devRef .tc main_arg1) := by after_results
theorem h0_arg2 : StableHlo.after hostOps0 W (Proc.devRef .tc main_arg2) = W (Proc.devRef .tc main_arg2) := by after_results
theorem h0_arg3 : StableHlo.after hostOps0 W (Proc.devRef .tc main_arg3) = W (Proc.devRef .tc main_arg3) := by after_results
theorem h0_arg4 : StableHlo.after hostOps0 W (Proc.devRef .tc main_arg4) = W (Proc.devRef .tc main_arg4) := by after_results
theorem h0_arg5 : StableHlo.after hostOps0 W (Proc.devRef .tc main_arg5) = W (Proc.devRef .tc main_arg5) := by after_results
theorem h0_arg6 : StableHlo.after hostOps0 W (Proc.devRef .tc main_arg6) = W (Proc.devRef .tc main_arg6) := by after_results

/-! ## The stretch before the second launch -/

theorem h1_v19 : StableHlo.after hostOps1 W (Proc.devRef .tc main_v19)
    = propagate (W (Proc.devRef .tc main_v9)) (W (Proc.devRef .tc main_arg5)) (W (Proc.devRef .tc main_arg6)) := by
  after_results; rfl
theorem h1_v21 : StableHlo.after hostOps1 W (Proc.devRef .tc main_v21) = wmat0 (W (Proc.devRef .tc main_arg1)) := by
  after_results; rfl
theorem h1_v24 : StableHlo.after hostOps1 W (Proc.devRef .tc main_v24) = row (bvec0 (W (Proc.devRef .tc main_arg2))) := by
  after_results; rfl
theorem h1_v25 : StableHlo.after hostOps1 W (Proc.devRef .tc main_v25) = row (W (Proc.devRef .tc main_arg4)) := by
  after_results; rfl
theorem h1_v8 : StableHlo.after hostOps1 W (Proc.devRef .tc main_v8) = W (Proc.devRef .tc main_v8) := by after_results
theorem h1_arg0 : StableHlo.after hostOps1 W (Proc.devRef .tc main_arg0) = W (Proc.devRef .tc main_arg0) := by after_results
theorem h1_arg1 : StableHlo.after hostOps1 W (Proc.devRef .tc main_arg1) = W (Proc.devRef .tc main_arg1) := by after_results
theorem h1_arg2 : StableHlo.after hostOps1 W (Proc.devRef .tc main_arg2) = W (Proc.devRef .tc main_arg2) := by after_results
theorem h1_arg3 : StableHlo.after hostOps1 W (Proc.devRef .tc main_arg3) = W (Proc.devRef .tc main_arg3) := by after_results
theorem h1_arg5 : StableHlo.after hostOps1 W (Proc.devRef .tc main_arg5) = W (Proc.devRef .tc main_arg5) := by after_results
theorem h1_arg6 : StableHlo.after hostOps1 W (Proc.devRef .tc main_arg6) = W (Proc.devRef .tc main_arg6) := by after_results

/-! ## The stretch before the third launch -/

theorem h2_v36 : StableHlo.after hostOps2 W (Proc.devRef .tc main_v36)
    = propagate (W (Proc.devRef .tc main_v26_1)) (W (Proc.devRef .tc main_arg5)) (W (Proc.devRef .tc main_arg6)) := by
  after_results; rfl
theorem h2_v38 : StableHlo.after hostOps2 W (Proc.devRef .tc main_v38) = wmat1 (W (Proc.devRef .tc main_arg1)) := by
  after_results; rfl
theorem h2_v41 : StableHlo.after hostOps2 W (Proc.devRef .tc main_v41) = row (bvec1 (W (Proc.devRef .tc main_arg2))) := by
  after_results; rfl
theorem h2_v8 : StableHlo.after hostOps2 W (Proc.devRef .tc main_v8) = W (Proc.devRef .tc main_v8) := by after_results
theorem h2_v26_0 : StableHlo.after hostOps2 W (Proc.devRef .tc main_v26_0) = W (Proc.devRef .tc main_v26_0) := by after_results
theorem h2_arg1 : StableHlo.after hostOps2 W (Proc.devRef .tc main_arg1) = W (Proc.devRef .tc main_arg1) := by after_results
theorem h2_arg2 : StableHlo.after hostOps2 W (Proc.devRef .tc main_arg2) = W (Proc.devRef .tc main_arg2) := by after_results
theorem h2_arg5 : StableHlo.after hostOps2 W (Proc.devRef .tc main_arg5) = W (Proc.devRef .tc main_arg5) := by after_results
theorem h2_arg6 : StableHlo.after hostOps2 W (Proc.devRef .tc main_arg6) = W (Proc.devRef .tc main_arg6) := by after_results

/-! ## The stretch before the fourth launch -/

set_option maxHeartbeats 1000000 in
theorem h3_v52 : StableHlo.after hostOps3 W (Proc.devRef .tc main_v52)
    = propagate (W (Proc.devRef .tc main_v42_1)) (W (Proc.devRef .tc main_arg5)) (W (Proc.devRef .tc main_arg6)) := by
  after_results; rfl
theorem h3_v54 : StableHlo.after hostOps3 W (Proc.devRef .tc main_v54) = wmat2 (W (Proc.devRef .tc main_arg1)) := by
  after_results; rfl
theorem h3_v57 : StableHlo.after hostOps3 W (Proc.devRef .tc main_v57) = row (bvec2 (W (Proc.devRef .tc main_arg2))) := by
  after_results; rfl
theorem h3_v8 : StableHlo.after hostOps3 W (Proc.devRef .tc main_v8) = W (Proc.devRef .tc main_v8) := by after_results
theorem h3_v42_0 : StableHlo.after hostOps3 W (Proc.devRef .tc main_v42_0) = W (Proc.devRef .tc main_v42_0) := by after_results

end Cert.KernelIdeal.Host

end
-- ==== Proof.Spec.lean ====
/-
  The network both programs compute, as one function of its inputs, entry by entry, over the extended reals.
  A node array has 100000 rows (nodes) of 64 channels. With n the per-node factor and P the propagation of node rows
  along the edges (kept abstract here: both programs apply the same one),

    scale x n        (p, q) = x (p, q) · n p
    dense h w b      (p, q) = Σₖ h (p, k) · w (k, q) + b q
    layerRes s n x … (p, q) = max (dense (scale s n) w b (p, q)) 0 + dense x wres bres (p, q)     (first layer)
    layerId  s n x … (p, q) = max (dense (scale s n) w b (p, q)) 0 + x (p, q)                      (later layers)

  and the network is three layers, each fed P (scale x n) of the layer before.
-/
import Idealize.ShloMosaic.Lib.ValueIdx
import Idealize.ShloMosaic.PureOps.Ideal

noncomputable section

namespace Cert.Spec

open Idealize.ShloMosaic Idealize.ShloMosaic.ValueIdx

/-- One value per node and channel. -/
abbrev NodeArr := FVec Ideal (⟨2, ![100000, 64]⟩ : Shape) .f32
/-- One value per node. -/
abbrev NodeVec := FVec Ideal (⟨1, ![100000]⟩ : Shape) .f32
/-- A 64×64 weight matrix. -/
abbrev Weights := FVec Ideal (⟨2, ![64, 64]⟩ : Shape) .f32
/-- A bias, one value per channel. -/
abbrev Bias := FVec Ideal (⟨1, ![64]⟩ : Shape) .f32

/-- The zero every rectifier compares against. -/
abbrev zero : Ideal .f32 := Ideal.ofBits .f32 0x00000000#32

/-- Each node's row multiplied by that node's factor. -/
def scale (x : NodeArr) (n : NodeVec) : NodeArr :=
  fun i => x i * n (ix1 ⟨(i 0).val, (i 0).isLt⟩)

theorem scale_ix2 (x : NodeArr) (n : NodeVec) (p : Fin 100000) (q : Fin 64) :
    scale x n (ix2 p q) = x (ix2 p q) * n (ix1 p) := rfl

/-- The affine map of each row: the row times the weight matrix, plus the bias. -/
def dense (h : NodeArr) (w : Weights) (b : Bias) : NodeArr :=
  fun i => (∑ k : Fin 64, h (ix2 (⟨(i 0).val, (i 0).isLt⟩ : Fin 100000) k) * w (ix2 k (⟨(i 1).val, (i 1).isLt⟩ : Fin 64)))
    + b (ix1 ⟨(i 1).val, (i 1).isLt⟩)

theorem dense_ix2 (h : NodeArr) (w : Weights) (b : Bias) (p : Fin 100000) (q : Fin 64) :
    dense h w b (ix2 p q) = (∑ k : Fin 64, h (ix2 p k) * w (ix2 k q)) + b (ix1 q) := rfl

/-- The first layer: the rectified affine map of the scaled propagated rows, plus an affine map of the layer's input. -/
def layerRes (s : NodeArr) (n : NodeVec) (x : NodeArr) (w : Weights) (b : Bias) (wres : Weights) (bres : Bias) : NodeArr :=
  fun i => max (dense (scale s n) w b i) zero + dense x wres bres i

/-- A later layer: the rectified affine map of the scaled propagated rows, plus the layer's input. -/
def layerId (s : NodeArr) (n : NodeVec) (x : NodeArr) (w : Weights) (b : Bias) : NodeArr :=
  fun i => max (dense (scale s n) w b i) zero + x i

/-- The three layers, each fed the propagation `P` of the scaled output of the one before. -/
def net (P : NodeArr → NodeArr) (n : NodeVec) (x : NodeArr) (w0 w1 w2 wres : Weights) (b0 b1 b2 bres : Bias) : NodeArr :=
  layerId (P (scale (layerId (P (scale (layerRes (P (scale x n)) n x w0 b0 wres bres) n)) n
      (layerRes (P (scale x n)) n x w0 b0 wres bres) w1 b1) n)) n
    (layerId (P (scale (layerRes (P (scale x n)) n x w0 b0 wres bres) n)) n
      (layerRes (P (scale x n)) n x w0 b0 wres bres) w1 b1) w2 b2

end Cert.Spec

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.LibColBcast.lean ====
/-
  A column laid against the rows of a two-axis array: an a×1 array broadcast to a×b reads, at (p, q), the column at p;
  a length-a vector laid along the first axis (broadcast to a×1, then to a×b) reads, at (p, q), the vector at p; and a
  length-a vector reshaped to a×1 reads, at (p, 0), the vector at p.
-/
import Idealize.ShloMosaic.Lib.ValueIdx
import Idealize.ShloMosaic.Lib.Pipeline.Value

noncomputable section

namespace Cert.LibColBcast

open Idealize.ShloMosaic Idealize.ShloMosaic.ValueIdx

variable {α : Type}

/-- An a×1 array broadcast to a×b reads, at (p, q), the operand's row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector broadcast along axis 0 to a×1, read at (p, u). -/
theorem bcast_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An a×1 array broadcast along both axes to a×b, read at (p, q), is its row p. -/
theorem bcast_ab_apply {a b : ℕ} (r : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h r (ix2 p q) = r (ix2 p (0 : Fin 1)) := by
  refine broadcastInDim_apply ![0, 1] h r (ix2 p q) (ix2 p (0 : Fin 1)) fun ax => ?_
  match ax with
  | ⟨0, _⟩ =>
    show p.val = if a = 1 then 0 else p.val
    split
    · have := p.isLt; omega
    · rfl
  | ⟨1, _⟩ => rfl

/-- The vector broadcast to a×1 and then to a×b reads, at (p, q), the vector at p. -/
theorem bcast_col_apply {a b : ℕ} (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [bcast_ab_apply, bcast_a1_apply]

/-- A length-a vector reshaped to a×1 reads, at (p, u), the vector at p. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cert.LibColBcast

end
-- ==== Proof.Payload.lean ====
/-
  What each kernel body stores, read at one entry (r, q) of its 2000×64 block, over the extended reals:
  the first kernel stores x (r, q) · n (r, 0); the layer kernels store
  max (Σₖ (s (r, k) · n (r, 0)) · w (k, q) + b (0, q)) 0 + res (r, q), with res the block of the layer's input (or, in the
  first layer, its affine map Σₖ x (r, k) · wres (k, q) + bres (0, q)), and that value times n (r, 0).
  The roundings to bf16 in front of the matrix unit are the identity on extended reals, and the product into the zero
  accumulator is the plain sum over the contracted axis.
-/
import proofs.«124605_j37666863186543_1_alg».proof.Proof.Gen.KernelIdeal.Skeleton
import proofs.«124605_j37666863186543_1_alg».proof.Proof.Spec
import proofs.«124605_j37666863186543_1_alg».proof.Proof.LibDense
import proofs.«124605_j37666863186543_1_alg».proof.Proof.LibColBcast
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The kernels' contraction is the plain one: the left operand's second axis against the right operand's first. -/
theorem dot_eq : dot_S2000x64_S64x64_S2000x64_1_0_0_1_n_n = DotDims.plain 2000 64 64 := rfl

/-- The rectified affine map of the scaled rows, at (r, q) of a block. -/
def act (s : FVec Ideal S2000x64 .f32) (n : FVec Ideal S2000x1 .f32) (w : FVec Ideal S64x64 .f32) (b : FVec Ideal S1x64 .f32)
    (r : Fin 2000) (q : Fin 64) : Ideal .f32 :=
  max ((∑ k : Fin 64, (s (ix2 r k) * n (ix2 r (0 : Fin 1))) * w (ix2 k q)) + b (ix2 (0 : Fin 1) q)) Cert.Spec.zero

/-- The first kernel: the block times its column of factors. -/
theorem pay0 (x0 : FVec Ideal S2000x64 .f32) (x1 : FVec Ideal S2000x1 .f32) (r : Fin 2000) (q : Fin 64) :
    k0_pay1 x0 x1 (ix2 r q) = x0 (ix2 r q) * x1 (ix2 r (0 : Fin 1)) := by
  unfold k0_pay1
  simp only [shapeCast_self, mulf_apply, Cert.LibColBcast.broadcastTo_a1_ab_apply]

/-- The scaled rows into the matrix unit, at (r, q). -/
theorem scaled_matmul (s : FVec Ideal S2000x64 .f32) (n : FVec Ideal S2000x1 .f32) (w : FVec Ideal S64x64 .f32)
    (r : Fin 2000) (q : Fin 64) :
    matmul dot_S2000x64_S64x64_S2000x64_1_0_0_1_n_n none
        (truncf .bf16 (mulf s (broadcastTo S2000x64 n broadcasts_S2000x1_S2000x64)) bitsLt_bf16_f32)
        (truncf .bf16 w bitsLt_bf16_f32) (constant S2000x64 .f32 0x00000000#32) (ix2 r q)
      = ∑ k : Fin 64, (s (ix2 r k) * n (ix2 r (0 : Fin 1))) * w (ix2 k q) := by
  rw [dot_eq]
  refine (Cert.LibDense.plain_matmul_apply none _ _ r q).trans ?_
  refine Finset.sum_congr rfl fun k _ => ?_
  simp only [truncf_apply, mulf_apply, Cert.LibColBcast.broadcastTo_a1_ab_apply]

/-- Plain rows into the matrix unit, at (r, q). -/
theorem plain_matmul (x : FVec Ideal S2000x64 .f32) (w : FVec Ideal S64x64 .f32) (r : Fin 2000) (q : Fin 64) :
    matmul dot_S2000x64_S64x64_S2000x64_1_0_0_1_n_n none (truncf .bf16 x bitsLt_bf16_f32)
        (truncf .bf16 w bitsLt_bf16_f32) (constant S2000x64 .f32 0x00000000#32) (ix2 r q)
      = ∑ k : Fin 64, x (ix2 r k) * w (ix2 k q) := by
  rw [dot_eq]
  refine (Cert.LibDense.plain_matmul_apply none _ _ r q).trans ?_
  refine Finset.sum_congr rfl fun k _ => ?_
  simp only [truncf_apply]

/-- The first layer's kernel, its first output. -/
theorem pay1_out (s : FVec Ideal S2000x64 .f32) (n : FVec Ideal S2000x1 .f32) (w : FVec Ideal S64x64 .f32) (b : FVec Ideal S1x64 .f32)
    (x : FVec Ideal S2000x64 .f32) (wres : FVec Ideal S64x64 .f32) (bres : FVec Ideal S1x64 .f32) (r : Fin 2000) (q : Fin 64) :
    k1_pay1 s n w b x wres bres (ix2 r q)
      = act s n w b r q + ((∑ k : Fin 64, x (ix2 r k) * wres (ix2 k q)) + bres (ix2 (0 : Fin 1) q)) := by
  unfold k1_pay1 act
  simp only [shapeCast_self]
  rw [addf_apply, maximumf_apply, addf_apply, addf_apply, scaled_matmul, plain_matmul,
    broadcastTo_1b_ab_apply, broadcastTo_1b_ab_apply]
  rfl

/-- The first layer's kernel, its second output: the first times the column of factors. -/
theorem pay1_pre (s : FVec Ideal S2000x64 .f32) (n : FVec Ideal S2000x1 .f32) (w : FVec Ideal S64x64 .f32) (b : FVec Ideal S1x64 .f32)
    (x : FVec Ideal S2000x64 .f32) (wres : FVec Ideal S64x64 .f32) (bres : FVec Ideal S1x64 .f32) (n' : FVec Ideal S2000x1 .f32)
    (r : Fin 2000) (q : Fin 64) :
    k1_pay2 s n w b x wres bres n' (ix2 r q) = k1_pay1 s n w b x wres bres (ix2 r q) * n' (ix2 r (0 : Fin 1)) := by
  unfold k1_pay2
  simp only [shapeCast_self, mulf_apply, Cert.LibColBcast.broadcastTo_a1_ab_apply]

/-- A later layer's kernel (second call), its first output. -/
theorem pay2_out (s : FVec Ideal S2000x64 .f32) (n : FVec Ideal S2000x1 .f32) (w : FVec Ideal S64x64 .f32) (b : FVec Ideal S1x64 .f32)
    (x : FVec Ideal S2000x64 .f32) (r : Fin 2000) (q : Fin 64) :
    k2_pay1 s n w b x (ix2 r q) = act s n w b r q + x (ix2 r q) := by
  unfold k2_pay1 act
  simp only [shapeCast_self]
  rw [addf_apply, maximumf_apply, addf_apply, scaled_matmul, broadcastTo_1b_ab_apply]
  rfl

theorem pay2_pre (s : FVec Ideal S2000x64 .f32) (n : FVec Ideal S2000x1 .f32) (w : FVec Ideal S64x64 .f32) (b : FVec Ideal S1x64 .f32)
    (x : FVec Ideal S2000x64 .f32) (n' : FVec Ideal S2000x1 .f32) (r : Fin 2000) (q : Fin 64) :
    k2_pay2 s n w b x n' (ix2 r q) = k2_pay1 s n w b x (ix2 r q) * n' (ix2 r (0 : Fin 1)) := by
  unfold k2_pay2
  simp only [shapeCast_self, mulf_apply, Cert.LibColBcast.broadcastTo_a1_ab_apply]

/-- A later layer's kernel (third call), its first output. -/
theorem pay3_out (s : FVec Ideal S2000x64 .f32) (n : FVec Ideal S2000x1 .f32) (w : FVec Ideal S64x64 .f32) (b : FVec Ideal S1x64 .f32)
    (x : FVec Ideal S2000x64 .f32) (r : Fin 2000) (q : Fin 64) :
    k3_pay1 s n w b x (ix2 r q) = act s n w b r q + x (ix2 r q) := by
  unfold k3_pay1 act
  simp only [shapeCast_self]
  rw [addf_apply, maximumf_apply, addf_apply, scaled_matmul, broadcastTo_1b_ab_apply]
  rfl

end Cert.KernelIdeal.Pay

end
-- ==== Proof.KShape.lean ====
/-
  What the four launches leave in their result arrays, as whole arrays over the kernels' own layouts: the per-node
  factors as a 100000×1 column n, a bias as a 1×64 row b.
    scaled x n             (p, q) = x (p, q) · n (p, 0)
    rect s n w b           (p, q) = max (Σₖ (s (p, k) · n (p, 0)) · w (k, q) + b (0, q)) 0
    outRes s n x w b w' b' (p, q) = rect s n w b (p, q) + (Σₖ x (p, k) · w' (k, q) + b' (0, q))
    outId  s n x w b       (p, q) = rect s n w b (p, q) + x (p, q)
  and, for each, the step from a 2000-row block's entry (r, q) to the array's entry (p, q) when the block's rows are the
  array's rows (block entry (r, ·) = array entry (p, ·)) and the small operands are read whole.
-/
import proofs.«124605_j37666863186543_1_alg».proof.Proof.Payload

noncomputable section

namespace Cert.KernelIdeal.KShape

open Cert.KernelIdeal Idealize.ShloMosaic Idealize.ShloMosaic.ValueIdx

/-- Each row times that row's factor. -/
def scaled (x : FVec Ideal S100000x64 .f32) (n : FVec Ideal S100000x1 .f32) : FVec Ideal S100000x64 .f32 :=
  fun i => x i * n (ix2 (⟨(i 0).val, (i 0).isLt⟩ : Fin 100000) (0 : Fin 1))

theorem scaled_ix2 (x : FVec Ideal S100000x64 .f32) (n : FVec Ideal S100000x1 .f32) (p : Fin 100000) (q : Fin 64) :
    scaled x n (ix2 p q) = x (ix2 p q) * n (ix2 p (0 : Fin 1)) := rfl

/-- The rectified affine map of the scaled rows, at (p, q). -/
def rect (s : FVec Ideal S100000x64 .f32) (n : FVec Ideal S100000x1 .f32) (w : FVec Ideal S64x64 .f32) (b : FVec Ideal S1x64 .f32)
    (p : Fin 100000) (q : Fin 64) : Ideal .f32 :=
  max ((∑ k : Fin 64, (s (ix2 p k) * n (ix2 p (0 : Fin 1))) * w (ix2 k q)) + b (ix2 (0 : Fin 1) q)) Cert.Spec.zero

/-- The first layer's output. -/
def outRes (s : FVec Ideal S100000x64 .f32) (n : FVec Ideal S100000x1 .f32) (x : FVec Ideal S100000x64 .f32)
    (w : FVec Ideal S64x64 .f32) (b : FVec Ideal S1x64 .f32) (wres : FVec Ideal S64x64 .f32) (bres : FVec Ideal S1x64 .f32) :
    FVec Ideal S100000x64 .f32 :=
  fun i => rect s n w b ⟨(i 0).val, (i 0).isLt⟩ ⟨(i 1).val, (i 1).isLt⟩
    + ((∑ k : Fin 64, x (ix2 (⟨(i 0).val, (i 0).isLt⟩ : Fin 100000) k) * wres (ix2 k (⟨(i 1).val, (i 1).isLt⟩ : Fin 64)))
        + bres (ix2 (0 : Fin 1) (⟨(i 1).val, (i 1).isLt⟩ : Fin 64)))

/-- A later layer's output. -/
def outId (s : FVec Ideal S100000x64 .f32) (n : FVec Ideal S100000x1 .f32) (x : FVec Ideal S100000x64 .f32)
    (w : FVec Ideal S64x64 .f32) (b : FVec Ideal S1x64 .f32) : FVec Ideal S100000x64 .f32 :=
  fun i => rect s n w b ⟨(i 0).val, (i 0).isLt⟩ ⟨(i 1).val, (i 1).isLt⟩ + x i

/-- A block's rectified entry is the array's, when the block's row r is the array's row p. -/
theorem rect_block (sB : FVec Ideal S2000x64 .f32) (nB : FVec Ideal S2000x1 .f32) (wB : FVec Ideal S64x64 .f32) (bB : FVec Ideal S1x64 .f32)
    (s : FVec Ideal S100000x64 .f32) (n : FVec Ideal S100000x1 .f32) (w : FVec Ideal S64x64 .f32) (b : FVec Ideal S1x64 .f32)
    (r : Fin 2000) (q : Fin 64) (p : Fin 100000)
    (hs : ∀ k : Fin 64, sB (ix2 r k) = s (ix2 p k)) (hn : nB (ix2 r (0 : Fin 1)) = n (ix2 p (0 : Fin 1))) (hw : wB = w) (hb : bB = b) :
    Cert.KernelIdeal.Pay.act sB nB wB bB r q = rect s n w b p q := by
  unfold Cert.KernelIdeal.Pay.act rect
  rw [hn, hw, hb]
  simp only [hs]

/-- The first layer's block entry is the array's. -/
theorem res_block (sB : FVec Ideal S2000x64 .f32) (nB : FVec Ideal S2000x1 .f32) (wB : FVec Ideal S64x64 .f32) (bB : FVec Ideal S1x64 .f32)
    (xB : FVec Ideal S2000x64 .f32) (wresB : FVec Ideal S64x64 .f32) (bresB : FVec Ideal S1x64 .f32)
    (s : FVec Ideal S100000x64 .f32) (n : FVec Ideal S100000x1 .f32) (x : FVec Ideal S100000x64 .f32)
    (w : FVec Ideal S64x64 .f32) (b : FVec Ideal S1x64 .f32) (wres : FVec Ideal S64x64 .f32) (bres : FVec Ideal S1x64 .f32)
    (r : Fin 2000) (q : Fin 64) (p : Fin 100000)
    (hs : ∀ k : Fin 64, sB (ix2 r k) = s (ix2 p k)) (hn : nB (ix2 r (0 : Fin 1)) = n (ix2 p (0 : Fin 1)))
    (hx : ∀ k : Fin 64, xB (ix2 r k) = x (ix2 p k)) (hw : wB = w) (hb : bB = b) (hwres : wresB = wres) (hbres : bresB = bres) :
    Cert.KernelIdeal.Pay.act sB nB wB bB r q + ((∑ k : Fin 64, xB (ix2 r k) * wresB (ix2 k q)) + bresB (ix2 (0 : Fin 1) q))
      = outRes s n x w b wres bres (ix2 p q) := by
  rw [rect_block sB nB wB bB s n w b r q p hs hn hw hb, hwres, hbres]
  simp only [hx]
  rfl

/-- A later layer's block entry is the array's. -/
theorem id_block (sB : FVec Ideal S2000x64 .f32) (nB : FVec Ideal S2000x1 .f32) (wB : FVec Ideal S64x64 .f32) (bB : FVec Ideal S1x64 .f32)
    (xB : FVec Ideal S2000x64 .f32)
    (s : FVec Ideal S100000x64 .f32) (n : FVec Ideal S100000x1 .f32) (x : FVec Ideal S100000x64 .f32)
    (w : FVec Ideal S64x64 .f32) (b : FVec Ideal S1x64 .f32)
    (r : Fin 2000) (q : Fin 64) (p : Fin 100000)
    (hs : ∀ k : Fin 64, sB (ix2 r k) = s (ix2 p k)) (hn : nB (ix2 r (0 : Fin 1)) = n (ix2 p (0 : Fin 1)))
    (hx : xB (ix2 r q) = x (ix2 p q)) (hw : wB = w) (hb : bB = b) :
    Cert.KernelIdeal.Pay.act sB nB wB bB r q + xB (ix2 r q) = outId s n x w b (ix2 p q) := by
  rw [rect_block sB nB wB bB s n w b r q p hs hn hw hb, hx]
  rfl

end Cert.KernelIdeal.KShape

end
-- ==== Proof.KernelNet.lean ====
/-
  The three layers over the kernels' own layouts, as functions of the seven argument arrays: with n the column of
  per-node factors and P the propagation along the edges,
    x₁ = max ((P (x·n) · n) · W₀ + b₀) 0 + (x · Wres + bres)
    x₂ = max ((P (x₁·n) · n) · W₁ + b₁) 0 + x₁
    x₃ = max ((P (x₂·n) · n) · W₂ + b₂) 0 + x₂ .
-/
import proofs.«124605_j37666863186543_1_alg».proof.Proof.KernelHost
import proofs.«124605_j37666863186543_1_alg».proof.Proof.KShape

noncomputable section

namespace Cert.KernelIdeal.Net

open Cert.KernelIdeal Cert.KernelIdeal.Host Cert.KernelIdeal.KShape Idealize.ShloMosaic

section Net

variable (x : (⟨S100000x64, .f32⟩ : BufTy).Contents (Elt Ideal)) (w : (⟨S3x64x64, .f32⟩ : BufTy).Contents (Elt Ideal))
  (b : (⟨S3x64, .f32⟩ : BufTy).Contents (Elt Ideal)) (wres : (⟨S64x64, .f32⟩ : BufTy).Contents (Elt Ideal))
  (bres : (⟨S64, .f32⟩ : BufTy).Contents (Elt Ideal)) (src dst : (⟨S1600000, .i32⟩ : BufTy).Contents (Elt Ideal))

/-- The first layer's output. -/
def x1 : FVec Ideal S100000x64 .f32 :=
  outRes (propagate (scaled x (factors dst)) src dst) (factors dst) x (wmat0 w) (row (bvec0 b)) wres (row bres)

/-- The second layer's output. -/
def x2 : FVec Ideal S100000x64 .f32 :=
  outId (propagate (scaled (x1 x w b wres bres src dst) (factors dst)) src dst) (factors dst) (x1 x w b wres bres src dst)
    (wmat1 w) (row (bvec1 b))

/-- The third layer's output: the program's result. -/
def x3 : FVec Ideal S100000x64 .f32 :=
  outId (propagate (scaled (x2 x w b wres bres src dst) (factors dst)) src dst) (factors dst) (x2 x w b wres bres src dst)
    (wmat2 w) (row (bvec2 b))

end Net

end Cert.KernelIdeal.Net

end
-- ==== Proof.Region0.lean ====
/-
  The first kernel launch (each node's row times its factor), read as one array. The launch walks the 100000 rows in 50
  blocks of 2000; at block t it reads rows 2000·t … 2000·t + 1999 of the features and of the column of factors and
  writes the same rows of the result. Since the 50 blocks tile the array, the result array ends at
  x (p, q) · n (p, 0) at every entry, whatever it held before.
-/
import proofs.«124605_j37666863186543_1_alg».proof.Proof.Gen.KernelIdeal.Frame
import proofs.«124605_j37666863186543_1_alg».proof.Proof.KShape
import Idealize.ShloMosaic.Lib.Pipeline.Value

noncomputable section

namespace Cert.KernelIdeal.Reg0

open Cert.KernelIdeal Cert.KernelIdeal.Gen Idealize.ShloMosaic Idealize.ShloMosaic.TcCoe Idealize.SL.Sem
open Idealize.ShloMosaic.ValueIdx Cert.KernelIdeal.KShape
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Block t of each window starts at row 2000·t, column 0 (decided over the 50 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The features' block at point t, entry (r, q), is the features at row 2000·t + r. -/
theorem feat_block (c : Dev nD) (t : Fin cfg0.N) (r : Fin 2000) (q : Fin 64) (p : Fin 100000) (hp : p.val = t.val * 2000 + r.val) :
    (iblk0 V c 0 t : FVec Ideal S2000x64 .f32) (ix2 r q) = (V c main_arg0 : FVec Ideal S100000x64 .f32) (ix2 p q) := by
  obtain ⟨e0, e1, -, -, -, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * r.val = p.val; rw [e0, hp]; omega
  | ⟨1, _⟩ => show win0_0.index t (1 : Fin 2) * 64 + 1 * q.val = q.val; rw [e1]; omega

/-- The factors' block at point t, entry (r, 0), is the column of factors at row 2000·t + r. -/
theorem norm_block (c : Dev nD) (t : Fin cfg0.N) (r : Fin 2000) (p : Fin 100000) (hp : p.val = t.val * 2000 + r.val) :
    (iblk0 V c 1 t : FVec Ideal S2000x1 .f32) (ix2 r (0 : Fin 1)) = (V c main_v8 : FVec Ideal S100000x1 .f32) (ix2 p (0 : Fin 1)) := by
  obtain ⟨-, -, e2, e3, -, -⟩ := idx_facts t
  unfold iblk0
  rw [View.read_apply]
  show V c main_v8 _ = V c main_v8 _
  refine congrArg _ (funext fun a => Fin.ext ?_)
  match a with
  | ⟨0, _⟩ => show win0_1.index t (0 : Fin 2) * 2000 + 1 * r.val = p.val; rw [e2, hp]; omega
  | ⟨1, _⟩ => show win0_1.index t (1 : Fin 2) * 1 + 1 * 0 = 0; rw [e3]

/-- What point t writes back is block t of the scaled array. -/
theorem flushed_eq (c : Dev nD) (t : Fin cfg0.N) :
    (dat0 V c).flushed 2 t = ((cfg0.win 2).blk t).view.read (Elt Ideal) (scaled (V c main_arg0) (V c main_v8)) := by
  show (cfg0.win 2).cut (grid0.coords t) ((dat0 V c).after 2 t) = _
  rw [after0_2]
  unfold out0_2
  rw [View.canon_unit_zero hz]
  simp only [View.ld_unit_zero (S := S2000x64) hz, View.ld_unit_zero (S := S2000x1) hz]
  obtain ⟨-, -, -, -, e4, e5⟩ := idx_facts t
  funext j
  obtain ⟨r, q, rfl⟩ : ∃ (r : Fin 2000) (q : Fin 64), j = ix2 r q := ⟨j 0, j 1, eq_ix2 j⟩
  have hp : t.val * 2000 + r.val < 100000 := by
    have ht : t.val < 50 := t.isLt.trans_eq (show cfg0.N = 50 from N_0)
    have := r.isLt; omega
  have hemb : ((cfg0.win 2).blk t).view.emb (ix2 r q) = ix2 (⟨t.val * 2000 + r.val, hp⟩ : Fin 100000) q := by
    funext a; apply Fin.ext
    match a with
    | ⟨0, _⟩ => show win0_2.index t (0 : Fin 2) * 2000 + 1 * r.val = t.val * 2000 + r.val; rw [e4]; omega
    | ⟨1, _⟩ => show win0_2.index t (1 : Fin 2) * 64 + 1 * q.val = q.val; rw [e5]; omega
  show k0_pay1 (iblk0 V c 0 t) (iblk0 V c 1 t) (ix2 r q) = scaled (V c main_arg0) (V c main_v8) (((cfg0.win 2).blk t).view.emb (ix2 r q))
  rw [hemb]
  refine (Cert.KernelIdeal.Pay.pay0 (iblk0 V c 0 t) (iblk0 V c 1 t) r q).trans ?_
  rw [feat_block V c t r q ⟨t.val * 2000 + r.val, hp⟩ rfl, norm_block V c t r ⟨t.val * 2000 + r.val, hp⟩ rfl]
  rfl

/-- An entry is in point t's block iff each coordinate is in the block's range. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v9).slice (win0_2.rect t)).set ↔ _
  rw [View.set_slice_whole, Rect.mem_set_unit]
  exact Iff.rfl

/-- Every entry lies in the block of the point that owns its row: row p belongs to point p / 2000. -/
theorem cover (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 50 := N_0
  let t : Fin cfg0.N := ⟨(i 0).val / 2000, by rw [hN]; omega⟩
  obtain ⟨-, -, -, -, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 64 ≤ (i 1).val ∧ (i 1).val < win0_2.index t (1 : Fin 2) * 64 + 64; rw [e5]; omega

/-- After the launch the result array is the scaled array. -/
theorem final (c : Dev nD) : (dat0 V c).arrAt 2 cfg0.N = scaled (V c main_arg0) (V c main_v8) :=
  (dat0 V c).arrAt_eq_of_cover 2 (scaled (V c main_arg0) (V c main_v8)) (fun t _ => flushed_eq V c t) cover

end Cert.KernelIdeal.Reg0

end
-- ==== Proof.Region1.lean ====
/-
  The first layer's launch, read as two arrays. The launch walks the 100000 rows in 50 blocks of 2000; at block t it
  reads rows 2000·t … 2000·t + 1999 of the propagated rows s, of the column of factors n and of the layer's input x,
  reads the two weight matrices and the two bias rows whole, and writes the same rows of both results: the layer's
  output max (Σₖ (s·n)(p, k) · w (k, q) + b (0, q)) 0 + (Σₖ x (p, k) · w' (k, q) + b' (0, q)), and that output times
  n (p, 0). The 50 blocks tile each result array, so each ends at its formula at every entry.
-/
import proofs.«124605_j37666863186543_1_alg».proof.Proof.Gen.KernelIdeal.Frame
import proofs.«124605_j37666863186543_1_alg».proof.Proof.KShape
import Idealize.ShloMosaic.Lib.Pipeline.Value

noncomputable section

namespace Cert.KernelIdeal.Reg1

open Cert.KernelIdeal Cert.KernelIdeal.Gen Idealize.ShloMosaic Idealize.ShloMosaic.TcCoe Idealize.SL.Sem
open Idealize.ShloMosaic.ValueIdx Cert.KernelIdeal.KShape
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Block t of each row-blocked window starts at row 2000·t, column 0 (decided over the 50 points). -/
theorem idx_rows : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- The weight and bias windows always sit at block (0, 0): they are read whole. -/
theorem idx_whole : ∀ t : Fin cfg1.N, (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The propagated rows' block at point t, entry (r, q), is the array's row 2000·t + r. -/
theorem s_block (c : Dev nD) (t : Fin cfg1.N) (r : Fin 2000) (q : Fin 64) (p : Fin 100000) (hp : p.val = t.val * 2000 + r.val) :
    (iblk1 V c 0 t : FVec Ideal S2000x64 .f32) (ix2 r q) = (V c main_v19 : FVec Ideal S100000x64 .f32) (ix2 p q) := by
  obtain ⟨⟨e0, e1⟩, -, -, -, -⟩ := idx_rows t
  unfold iblk1
  rw [View.read_apply]
  show V c main_v19 _ = V c main_v19 _
  refine congrArg _ (funext fun a => Fin.ext ?_)
  match a with
  | ⟨0, _⟩ => show win1_0.index t (0 : Fin 2) * 2000 + 1 * r.val = p.val; rw [e0, hp]; omega
  | ⟨1, _⟩ => show win1_0.index t (1 : Fin 2) * 64 + 1 * q.val = q.val; rw [e1]; omega

/-- The factors' block at point t, entry (r, 0), is the column's row 2000·t + r. -/
theorem n_block (c : Dev nD) (t : Fin cfg1.N) (r : Fin 2000) (p : Fin 100000) (hp : p.val = t.val * 2000 + r.val) :
    (iblk1 V c 1 t : FVec Ideal S2000x1 .f32) (ix2 r (0 : Fin 1)) = (V c main_v8 : FVec Ideal S100000x1 .f32) (ix2 p (0 : Fin 1)) := by
  obtain ⟨-, ⟨e0, e1⟩, -, -, -⟩ := idx_rows t
  unfold iblk1
  rw [View.read_apply]
  show V c main_v8 _ = V c main_v8 _
  refine congrArg _ (funext fun a => Fin.ext ?_)
  match a with
  | ⟨0, _⟩ => show win1_1.index t (0 : Fin 2) * 2000 + 1 * r.val = p.val; rw [e0, hp]; omega
  | ⟨1, _⟩ => show win1_1.index t (1 : Fin 2) * 1 + 1 * 0 = 0; rw [e1]

/-- The layer input's block at point t, entry (r, q), is the array's row 2000·t + r. -/
theorem x_block (c : Dev nD) (t : Fin cfg1.N) (r : Fin 2000) (q : Fin 64) (p : Fin 100000) (hp : p.val = t.val * 2000 + r.val) :
    (iblk1 V c 2 t : FVec Ideal S2000x64 .f32) (ix2 r q) = (V c main_arg0 : FVec Ideal S100000x64 .f32) (ix2 p q) := by
  obtain ⟨-, -, ⟨e0, e1⟩, -, -⟩ := idx_rows t
  unfold iblk1
  rw [View.read_apply]
  show V c main_arg0 _ = V c main_arg0 _
  refine congrArg _ (funext fun a => Fin.ext ?_)
  match a with
  | ⟨0, _⟩ => show win1_2.index t (0 : Fin 2) * 2000 + 1 * r.val = p.val; rw [e0, hp]; omega
  | ⟨1, _⟩ => show win1_2.index t (1 : Fin 2) * 64 + 1 * q.val = q.val; rw [e1]; omega

/-- The layer's weight matrix is read whole at every point. -/
theorem w_block (c : Dev nD) (t : Fin cfg1.N) : (iblk1 V c 3 t : FVec Ideal S64x64 .f32) = (V c main_v21 : FVec Ideal S64x64 .f32) := by
  obtain ⟨⟨e0, e1⟩, -, -, -⟩ := idx_whole t
  funext y
  unfold iblk1
  rw [View.read_apply]
  show V c main_v21 _ = V c main_v21 _
  refine congrArg _ (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The layer's bias row is read whole at every point. -/
theorem b_block (c : Dev nD) (t : Fin cfg1.N) : (iblk1 V c 4 t : FVec Ideal S1x64 .f32) = (V c main_v24 : FVec Ideal S1x64 .f32) := by
  obtain ⟨-, ⟨e0, e1⟩, -, -⟩ := idx_whole t
  funext y
  unfold iblk1
  rw [View.read_apply]
  show V c main_v24 _ = V c main_v24 _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The residual weight matrix is read whole at every point. -/
theorem wres_block (c : Dev nD) (t : Fin cfg1.N) : (iblk1 V c 5 t : FVec Ideal S64x64 .f32) = (V c main_arg3 : FVec Ideal S64x64 .f32) := by
  obtain ⟨-, -, ⟨e0, e1⟩, -⟩ := idx_whole t
  funext y
  unfold iblk1
  rw [View.read_apply]
  show V c main_arg3 _ = V c main_arg3 _
  refine congrArg _ (funext fun a => Fin.ext ?_)
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-- The residual bias row is read whole at every point. -/
theorem bres_block (c : Dev nD) (t : Fin cfg1.N) : (iblk1 V c 6 t : FVec Ideal S1x64 .f32) = (V c main_v25 : FVec Ideal S1x64 .f32) := by
  obtain ⟨-, -, -, ⟨e0, e1⟩⟩ := idx_whole t
  funext y
  unfold iblk1
  rw [View.read_apply]
  show V c main_v25 _ = V c main_v25 _
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- The layer's output as one array of the arrays the launch finds. -/
abbrev out (c : Dev nD) : FVec Ideal S100000x64 .f32 :=
  outRes (V c main_v19) (V c main_v8) (V c main_arg0) (V c main_v21) (V c main_v24) (V c main_arg3) (V c main_v25)

theorem row_lt (t : Fin cfg1.N) (r : Fin 2000) : t.val * 2000 + r.val < 100000 := by
  have ht : t.val < 50 := t.isLt.trans_eq (show cfg1.N = 50 from N_1)
  have := r.isLt; omega

/-- The body's first store at block entry (r, q) is the layer's output at row 2000·t + r. -/
theorem out_entry (c : Dev nD) (t : Fin cfg1.N) (r : Fin 2000) (q : Fin 64) :
    k1_pay1 (iblk1 V c 0 t) (iblk1 V c 1 t) (iblk1 V c 3 t) (iblk1 V c 4 t) (iblk1 V c 2 t) (iblk1 V c 5 t) (iblk1 V c 6 t) (ix2 r q)
      = out V c (ix2 (⟨t.val * 2000 + r.val, row_lt t r⟩ : Fin 100000) q) :=
  (Cert.KernelIdeal.Pay.pay1_out (iblk1 V c 0 t) (iblk1 V c 1 t) (iblk1 V c 3 t) (iblk1 V c 4 t) (iblk1 V c 2 t) (iblk1 V c 5 t) (iblk1 V c 6 t) r q).trans
    (res_block (iblk1 V c 0 t) (iblk1 V c 1 t) (iblk1 V c 3 t) (iblk1 V c 4 t) (iblk1 V c 2 t) (iblk1 V c 5 t) (iblk1 V c 6 t)
      (V c main_v19) (V c main_v8) (V c main_arg0) (V c main_v21) (V c main_v24) (V c main_arg3) (V c main_v25) r q ⟨t.val * 2000 + r.val, row_lt t r⟩
      (fun k => s_block V c t r k _ rfl) (n_block V c t r _ rfl) (fun k => x_block V c t r k _ rfl)
      (w_block V c t) (b_block V c t) (wres_block V c t) (bres_block V c t))

/-- What point t writes back to the first result is block t of the layer's output. -/
theorem flushed7_eq (c : Dev nD) (t : Fin cfg1.N) :
    (dat1 V c).flushed 7 t = ((cfg1.win 7).blk t).view.read (Elt Ideal) (out V c) := by
  show (cfg1.win 7).cut (grid1.coords t) ((dat1 V c).after 7 t) = _
  rw [after1_7]
  unfold out1_7
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, ⟨e0, e1⟩, -⟩ := idx_rows t
  funext j
  obtain ⟨r, q, rfl⟩ : ∃ (r : Fin 2000) (q : Fin 64), j = ix2 r q := ⟨j 0, j 1, eq_ix2 j⟩
  have hemb : ((cfg1.win 7).blk t).view.emb (ix2 r q) = ix2 (⟨t.val * 2000 + r.val, row_lt t r⟩ : Fin 100000) q := by
    funext a; apply Fin.ext
    match a with
    | ⟨0, _⟩ => show win1_7.index t (0 : Fin 2) * 2000 + 1 * r.val = t.val * 2000 + r.val; rw [e0]; omega
    | ⟨1, _⟩ => show win1_7.index t (1 : Fin 2) * 64 + 1 * q.val = q.val; rw [e1]; omega
  show k1_pay1 (iblk1 V c 0 t) (iblk1 V c 1 t) (iblk1 V c 3 t) (iblk1 V c 4 t) (iblk1 V c 2 t) (iblk1 V c 5 t) (iblk1 V c 6 t) (ix2 r q)
    = out V c (((cfg1.win 7).blk t).view.emb (ix2 r q))
  rw [hemb]
  exact out_entry V c t r q

/-- What point t writes back to the second result is block t of the scaled output. -/
theorem flushed8_eq (c : Dev nD) (t : Fin cfg1.N) :
    (dat1 V c).flushed 8 t = ((cfg1.win 8).blk t).view.read (Elt Ideal) (scaled (out V c) (V c main_v8)) := by
  show (cfg1.win 8).cut (grid1.coords t) ((dat1 V c).after 8 t) = _
  rw [after1_8]
  unfold out1_8
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, ⟨e0, e1⟩⟩ := idx_rows t
  funext j
  obtain ⟨r, q, rfl⟩ : ∃ (r : Fin 2000) (q : Fin 64), j = ix2 r q := ⟨j 0, j 1, eq_ix2 j⟩
  have hemb : ((cfg1.win 8).blk t).view.emb (ix2 r q) = ix2 (⟨t.val * 2000 + r.val, row_lt t r⟩ : Fin 100000) q := by
    funext a; apply Fin.ext
    match a with
    | ⟨0, _⟩ => show win1_8.index t (0 : Fin 2) * 2000 + 1 * r.val = t.val * 2000 + r.val; rw [e0]; omega
    | ⟨1, _⟩ => show win1_8.index t (1 : Fin 2) * 64 + 1 * q.val = q.val; rw [e1]; omega
  show k1_pay2 (iblk1 V c 0 t) (iblk1 V c 1 t) (iblk1 V c 3 t) (iblk1 V c 4 t) (iblk1 V c 2 t) (iblk1 V c 5 t) (iblk1 V c 6 t) (iblk1 V c 1 t) (ix2 r q)
    = scaled (out V c) (V c main_v8) (((cfg1.win 8).blk t).view.emb (ix2 r q))
  rw [hemb]
  refine (Cert.KernelIdeal.Pay.pay1_pre (iblk1 V c 0 t) (iblk1 V c 1 t) (iblk1 V c 3 t) (iblk1 V c 4 t) (iblk1 V c 2 t) (iblk1 V c 5 t) (iblk1 V c 6 t) (iblk1 V c 1 t) r q).trans ?_
  rw [out_entry V c t r q, n_block V c t r ⟨t.val * 2000 + r.val, row_lt t r⟩ rfl]
  rfl

/-- An entry is in point t's block of the first result iff each coordinate is in the block's range. -/
theorem mem_blk7 (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v26_0).slice (win1_7.rect t)).set ↔ _
  rw [View.set_slice_whole, Rect.mem_set_unit]
  exact Iff.rfl

theorem mem_blk8 (t : Fin cfg1.N) (i : S100000x64.Idx) :
    i ∈ ((cfg1.win 8).blk t).view.set ↔ ∀ a : Fin 2, win1_8.index t a * S2000x64.size a ≤ (i a).val ∧ (i a).val < win1_8.index t a * S2000x64.size a + S2000x64.size a := by
  show i ∈ ((View.whole main_v26_1).slice (win1_8.rect t)).set ↔ _
  rw [View.set_slice_whole, Rect.mem_set_unit]
  exact Iff.rfl

/-- Every entry lies in the block of the point that owns its row: row p belongs to point p / 2000. -/
theorem cover7 (i : S100000x64.Idx) : ∃ t : Fin cfg1.N, (cfg1.win 7).flush t = true ∧ i ∈ ((cfg1.win 7).blk t).view.set := by
  have h0 : (i 0).val < 100000 := (i 0).isLt
  have h1 : (i 1).val < 64 := (i 1).isLt
  have hN : cfg1.N = 50 := N_1
  let t : Fin cfg1.N := ⟨(i 0).val / 2000, by rw [hN]; omega⟩
  obtain ⟨-, -, -, ⟨e0, e1⟩, -⟩ := idx_rows t
  have ht : t.val = (i 0).val / 2000 := rfl
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 64 ≤ (i 1).val ∧ (i 1).val < win1_7.index t (1 : Fin 2) * 64 + 64; rw [e1]; omega

theorem cover8 (i : S100000x64.Idx) : ∃ t : Fin cfg1.N, (cfg1.win 8).flush t = true ∧ i ∈ ((cfg1.win 8).blk t).view.set := by
  have h0 : (i 0).val < 100000 := (i 0).isLt
  have h1 : (i 1).val < 64 := (i 1).isLt
  have hN : cfg1.N = 50 := N_1
  let t : Fin cfg1.N := ⟨(i 0).val / 2000, by rw [hN]; omega⟩
  obtain ⟨-, -, -, -, ⟨e0, e1⟩⟩ := idx_rows t
  have ht : t.val = (i 0).val / 2000 := rfl
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; rw [e0, ht]; omega
  | ⟨1, _⟩ => show win1_8.index t (1 : Fin 2) * 64 ≤ (i 1).val ∧ (i 1).val < win1_8.index t (1 : Fin 2) * 64 + 64; rw [e1]; omega

/-- After the launch the first result array is the layer's output. -/
theorem final7 (c : Dev nD) : (dat1 V c).arrAt 7 cfg1.N = out V c :=
  (dat1 V c).arrAt_eq_of_cover 7 (out V c) (fun t _ => flushed7_eq V c t) cover7

/-- After the launch the second result array is the layer's output, each row times its factor. -/
theorem final8 (c : Dev nD) : (dat1 V c).arrAt 8 cfg1.N = scaled (out V c) (V c main_v8) :=
  (dat1 V c).arrAt_eq_of_cover 8 (scaled (out V c) (V c main_v8)) (fun t _ => flushed8_eq V c t) cover8

end Cert.KernelIdeal.Reg1

end
-- ==== Proof.Region2.lean ====
/-
  The second layer's launch, read as two arrays. The launch walks the 100000 rows in 50 blocks of 2000; at block t it
  reads rows 2000·t … 2000·t + 1999 of the propagated rows s, of the column of factors n and of the layer's input x,
  reads the weight matrix and the bias row whole, and writes the same rows of both results: the layer's output
  max (Σₖ (s·n)(p, k) · w (k, q) + b (0, q)) 0 + x (p, q), and that output times n (p, 0). The 50 blocks tile each result array, so each ends at its formula
  at every entry.
-/
import proofs.«124605_j37666863186543_1_alg».proof.Proof.Gen.KernelIdeal.Frame
import proofs.«124605_j37666863186543_1_alg».proof.Proof.KShape
import Idealize.ShloMosaic.Lib.Pipeline.Value

noncomputable section

namespace Cert.KernelIdeal.Reg2

open Cert.KernelIdeal Cert.KernelIdeal.Gen Idealize.ShloMosaic Idealize.ShloMosaic.TcCoe Idealize.SL.Sem
open Idealize.ShloMosaic.ValueIdx Cert.KernelIdeal.KShape
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Block t of each row-blocked window starts at row 2000·t, column 0 (decided over the 50 points). -/
theorem idx_rows : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_5.index t (0 : Fin 2) = t.val ∧ win2_5.index t (1 : Fin 2) = 0)
    ∧ (win2_6.index t (0 : Fin 2) = t.val ∧ win2_6.index t (1 : Fin 2) = 0) :=
  (by decide +kernel : ∀ t : Fin grid2.N, _)

/-- The weight and bias windows always sit at block (0, 0): they are read whole. -/
theorem idx_whole : ∀ t : Fin cfg2.N, (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

/-- The propagated rows' block at point t, entry (r, q), is the array's row 2000·t + r. -/
theorem s_block (c : Dev nD) (t : Fin cfg2.N) (r : Fin 2000) (q : Fin 64) (p : Fin 100000) (hp : p.val = t.val * 2000 + r.val) :
    (iblk2 V c 0 t : FVec Ideal S2000x64 .f32) (ix2 r q) = (V c main_v36 : FVec Ideal S100000x64 .f32) (ix2 p q) := by
  obtain ⟨⟨e0, e1⟩, -, -, -, -⟩ := idx_rows t
  unfold iblk2
  rw [View.read_apply]
  show V c main_v36 _ = V c main_v36 _
  refine congrArg _ (funext fun a => Fin.ext ?_)
  match a with
  | ⟨0, _⟩ => show win2_0.index t (0 : Fin 2) * 2000 + 1 * r.val = p.val; rw [e0, hp]; omega
  | ⟨1, _⟩ => show win2_0.index t (1 : Fin 2) * 64 + 1 * q.val = q.val; rw [e1]; omega

/-- The factors' block at point t, entry (r, 0), is the column's row 2000·t + r. -/
theorem n_block (c : Dev nD) (t : Fin cfg2.N) (r : Fin 2000) (p : Fin 100000) (hp : p.val = t.val * 2000 + r.val) :
    (iblk2 V c 1 t : FVec Ideal S2000x1 .f32) (ix2 r (0 : Fin 1)) = (V c main_v8 : FVec Ideal S100000x1 .f32) (ix2 p (0 : Fin 1)) := by
  obtain ⟨-, ⟨e0, e1⟩, -, -, -⟩ := idx_rows t
  unfold iblk2
  rw [View.read_apply]
  show V c main_v8 _ = V c main_v8 _
  refine congrArg _ (funext fun a => Fin.ext ?_)
  match a with
  | ⟨0, _⟩ => show win2_1.index t (0 : Fin 2) * 2000 + 1 * r.val = p.val; rw [e0, hp]; omega
  | ⟨1, _⟩ => show win2_1.index t (1 : Fin 2) * 1 + 1 * 0 = 0; rw [e1]

/-- The layer input's block at point t, entry (r, q), is the array's row 2000·t + r. -/
theorem x_block (c : Dev nD) (t : Fin cfg2.N) (r : Fin 2000) (q : Fin 64) (p : Fin 100000) (hp : p.val = t.val * 2000 + r.val) :
    (iblk2 V c 2 t : FVec Ideal S2000x64 .f32) (ix2 r q) = (V c main_v26_0 : FVec Ideal S100000x64 .f32) (ix2 p q) := by
  obtain ⟨-, -, ⟨e0, e1⟩, -, -⟩ := idx_rows t
  unfold iblk2
  rw [View.read_apply]
  show V c main_v26_0 _ = V c main_v26_0 _
  refine congrArg _ (funext fun a => Fin.ext ?_)
  match a with
  | ⟨0, _⟩ => show win2_2.index t (0 : Fin 2) * 2000 + 1 * r.val = p.val; rw [e0, hp]; omega
  | ⟨1, _⟩ => show win2_2.index t (1 : Fin 2) * 64 + 1 * q.val = q.val; rw [e1]; omega

/-- The layer's weight matrix is read whole at every point. -/
theorem w_block (c : Dev nD) (t : Fin cfg2.N) : (iblk2 V c 3 t : FVec Ideal S64x64 .f32) = (V c main_v38 : FVec Ideal S64x64 .f32) := by
  obtain ⟨⟨e0, e1⟩, -⟩ := idx_whole t
  funext y
  unfold iblk2
  rw [View.read_apply]
  show V c main_v38 _ = V c main_v38 _
  refine congrArg _ (funext fun a => Fin.ext ?_)
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- The layer's bias row is read whole at every point. -/
theorem b_block (c : Dev nD) (t : Fin cfg2.N) : (iblk2 V c 4 t : FVec Ideal S1x64 .f32) = (V c main_v41 : FVec Ideal S1x64 .f32) := by
  obtain ⟨-, ⟨e0, e1⟩⟩ := idx_whole t
  funext y
  unfold iblk2
  rw [View.read_apply]
  show V c main_v41 _ = V c main_v41 _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- The layer's output as one array of the arrays the launch finds. -/
abbrev out (c : Dev nD) : FVec Ideal S100000x64 .f32 :=
  outId (V c main_v36) (V c main_v8) (V c main_v26_0) (V c main_v38) (V c main_v41)

theorem row_lt (t : Fin cfg2.N) (r : Fin 2000) : t.val * 2000 + r.val < 100000 := by
  have ht : t.val < 50 := t.isLt.trans_eq (show cfg2.N = 50 from N_2)
  have := r.isLt; omega

/-- The body's first store at block entry (r, q) is the layer's output at row 2000·t + r. -/
theorem out_entry (c : Dev nD) (t : Fin cfg2.N) (r : Fin 2000) (q : Fin 64) :
    k2_pay1 (iblk2 V c 0 t) (iblk2 V c 1 t) (iblk2 V c 3 t) (iblk2 V c 4 t) (iblk2 V c 2 t) (ix2 r q)
      = out V c (ix2 (⟨t.val * 2000 + r.val, row_lt t r⟩ : Fin 100000) q) :=
  (Cert.KernelIdeal.Pay.pay2_out (iblk2 V c 0 t) (iblk2 V c 1 t) (iblk2 V c 3 t) (iblk2 V c 4 t) (iblk2 V c 2 t) r q).trans
    (id_block (iblk2 V c 0 t) (iblk2 V c 1 t) (iblk2 V c 3 t) (iblk2 V c 4 t) (iblk2 V c 2 t)
      (V c main_v36) (V c main_v8) (V c main_v26_0) (V c main_v38) (V c main_v41) r q ⟨t.val * 2000 + r.val, row_lt t r⟩
      (fun k => s_block V c t r k _ rfl) (n_block V c t r _ rfl) (x_block V c t r q _ rfl)
      (w_block V c t) (b_block V c t))

/-- What point t writes back to the first result is block t of the layer's output. -/
theorem flushed5_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, ⟨e0, e1⟩, -⟩ := idx_rows t
  funext j
  obtain ⟨r, q, rfl⟩ : ∃ (r : Fin 2000) (q : Fin 64), j = ix2 r q := ⟨j 0, j 1, eq_ix2 j⟩
  have hemb : ((cfg2.win 5).blk t).view.emb (ix2 r q) = ix2 (⟨t.val * 2000 + r.val, row_lt t r⟩ : Fin 100000) q := by
    funext a; apply Fin.ext
    match a with
    | ⟨0, _⟩ => show win2_5.index t (0 : Fin 2) * 2000 + 1 * r.val = t.val * 2000 + r.val; rw [e0]; omega
    | ⟨1, _⟩ => show win2_5.index t (1 : Fin 2) * 64 + 1 * q.val = q.val; rw [e1]; omega
  show k2_pay1 (iblk2 V c 0 t) (iblk2 V c 1 t) (iblk2 V c 3 t) (iblk2 V c 4 t) (iblk2 V c 2 t) (ix2 r q)
    = out V c (((cfg2.win 5).blk t).view.emb (ix2 r q))
  rw [hemb]
  exact out_entry V c t r q

/-- What point t writes back to the second result is block t of the scaled output. -/
theorem flushed6_eq (c : Dev nD) (t : Fin cfg2.N) :
    (dat2 V c).flushed 6 t = ((cfg2.win 6).blk t).view.read (Elt Ideal) (scaled (out V c) (V c main_v8)) := by
  show (cfg2.win 6).cut (grid2.coords t) ((dat2 V c).after 6 t) = _
  rw [after2_6]
  unfold out2_6
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, ⟨e0, e1⟩⟩ := idx_rows t
  funext j
  obtain ⟨r, q, rfl⟩ : ∃ (r : Fin 2000) (q : Fin 64), j = ix2 r q := ⟨j 0, j 1, eq_ix2 j⟩
  have hemb : ((cfg2.win 6).blk t).view.emb (ix2 r q) = ix2 (⟨t.val * 2000 + r.val, row_lt t r⟩ : Fin 100000) q := by
    funext a; apply Fin.ext
    match a with
    | ⟨0, _⟩ => show win2_6.index t (0 : Fin 2) * 2000 + 1 * r.val = t.val * 2000 + r.val; rw [e0]; omega
    | ⟨1, _⟩ => show win2_6.index t (1 : Fin 2) * 64 + 1 * q.val = q.val; rw [e1]; omega
  show k2_pay2 (iblk2 V c 0 t) (iblk2 V c 1 t) (iblk2 V c 3 t) (iblk2 V c 4 t) (iblk2 V c 2 t) (iblk2 V c 1 t) (ix2 r q)
    = scaled (out V c) (V c main_v8) (((cfg2.win 6).blk t).view.emb (ix2 r q))
  rw [hemb]
  refine (Cert.KernelIdeal.Pay.pay2_pre (iblk2 V c 0 t) (iblk2 V c 1 t) (iblk2 V c 3 t) (iblk2 V c 4 t) (iblk2 V c 2 t) (iblk2 V c 1 t) r q).trans ?_
  rw [out_entry V c t r q, n_block V c t r ⟨t.val * 2000 + r.val, row_lt t r⟩ rfl]
  rfl

/-- An entry is in point t's block of the first result iff each coordinate is in the block's range. -/
theorem mem_blk5 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v42_0).slice (win2_5.rect t)).set ↔ _
  rw [View.set_slice_whole, Rect.mem_set_unit]
  exact Iff.rfl

theorem mem_blk6 (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v42_1).slice (win2_6.rect t)).set ↔ _
  rw [View.set_slice_whole, Rect.mem_set_unit]
  exact Iff.rfl

/-- Every entry lies in the block of the point that owns its row: row p belongs to point p / 2000. -/
theorem cover5 (i : S100000x64.Idx) : ∃ t : Fin cfg2.N, (cfg2.win 5).flush t = true ∧ i ∈ ((cfg2.win 5).blk t).view.set := by
  have h0 : (i 0).val < 100000 := (i 0).isLt
  have h1 : (i 1).val < 64 := (i 1).isLt
  have hN : cfg2.N = 50 := N_2
  let t : Fin cfg2.N := ⟨(i 0).val / 2000, by rw [hN]; omega⟩
  obtain ⟨-, -, -, ⟨e0, e1⟩, -⟩ := idx_rows t
  have ht : t.val = (i 0).val / 2000 := rfl
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 64 ≤ (i 1).val ∧ (i 1).val < win2_5.index t (1 : Fin 2) * 64 + 64; rw [e1]; omega

theorem cover6 (i : S100000x64.Idx) : ∃ t : Fin cfg2.N, (cfg2.win 6).flush t = true ∧ i ∈ ((cfg2.win 6).blk t).view.set := by
  have h0 : (i 0).val < 100000 := (i 0).isLt
  have h1 : (i 1).val < 64 := (i 1).isLt
  have hN : cfg2.N = 50 := N_2
  let t : Fin cfg2.N := ⟨(i 0).val / 2000, by rw [hN]; omega⟩
  obtain ⟨-, -, -, -, ⟨e0, e1⟩⟩ := idx_rows t
  have ht : t.val = (i 0).val / 2000 := rfl
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 64 ≤ (i 1).val ∧ (i 1).val < win2_6.index t (1 : Fin 2) * 64 + 64; rw [e1]; omega

/-- After the launch the first result array is the layer's output. -/
theorem final5 (c : Dev nD) : (dat2 V c).arrAt 5 cfg2.N = out V c :=
  (dat2 V c).arrAt_eq_of_cover 5 (out V c) (fun t _ => flushed5_eq V c t) cover5

/-- After the launch the second result array is the layer's output, each row times its factor. -/
theorem final6 (c : Dev nD) : (dat2 V c).arrAt 6 cfg2.N = scaled (out V c) (V c main_v8) :=
  (dat2 V c).arrAt_eq_of_cover 6 (scaled (out V c) (V c main_v8)) (fun t _ => flushed6_eq V c t) cover6

end Cert.KernelIdeal.Reg2

end
-- ==== Proof.Region3.lean ====
/-
  The third layer's launch, read as one array. The launch walks the 100000 rows in 50 blocks of 2000; at block t it
  reads rows 2000·t … 2000·t + 1999 of the propagated rows s, of the column of factors n and of the layer's input x,
  reads the weight matrix and the bias row whole, and writes the same rows of the layer's output
  max (Σₖ (s·n)(p, k) · w (k, q) + b (0, q)) 0 + x (p, q). The 50 blocks tile the result array, so it ends at the formula
  at every entry.
-/
import proofs.«124605_j37666863186543_1_alg».proof.Proof.Gen.KernelIdeal.Frame
import proofs.«124605_j37666863186543_1_alg».proof.Proof.KShape
import Idealize.ShloMosaic.Lib.Pipeline.Value

noncomputable section

namespace Cert.KernelIdeal.Reg3

open Cert.KernelIdeal Cert.KernelIdeal.Gen Idealize.ShloMosaic Idealize.ShloMosaic.TcCoe Idealize.SL.Sem
open Idealize.ShloMosaic.ValueIdx Cert.KernelIdeal.KShape
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Block t of each row-blocked window starts at row 2000·t, column 0 (decided over the 50 points). -/
theorem idx_rows : ∀ t : Fin cfg3.N, (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_5.index t (0 : Fin 2) = t.val ∧ win3_5.index t (1 : Fin 2) = 0)
    ∧ (win3_6.index t (0 : Fin 2) = t.val ∧ win3_6.index t (1 : Fin 2) = 0) :=
  (by decide +kernel : ∀ t : Fin grid3.N, _)

/-- The weight and bias windows always sit at block (0, 0): they are read whole. -/
theorem idx_whole : ∀ t : Fin cfg3.N, (win3_3.index t (0 : Fin 2) = 0 ∧ win3_3.index t (1 : Fin 2) = 0)
    ∧ (win3_4.index t (0 : Fin 2) = 0 ∧ win3_4.index t (1 : Fin 2) = 0) :=
  (by decide +kernel : ∀ t : Fin grid3.N, _)

/-- The propagated rows' block at point t, entry (r, q), is the array's row 2000·t + r. -/
theorem s_block (c : Dev nD) (t : Fin cfg3.N) (r : Fin 2000) (q : Fin 64) (p : Fin 100000) (hp : p.val = t.val * 2000 + r.val) :
    (iblk3 V c 0 t : FVec Ideal S2000x64 .f32) (ix2 r q) = (V c main_v52 : FVec Ideal S100000x64 .f32) (ix2 p q) := by
  obtain ⟨⟨e0, e1⟩, -, -, -, -⟩ := idx_rows t
  unfold iblk3
  rw [View.read_apply]
  show V c main_v52 _ = V c main_v52 _
  refine congrArg _ (funext fun a => Fin.ext ?_)
  match a with
  | ⟨0, _⟩ => show win3_0.index t (0 : Fin 2) * 2000 + 1 * r.val = p.val; rw [e0, hp]; omega
  | ⟨1, _⟩ => show win3_0.index t (1 : Fin 2) * 64 + 1 * q.val = q.val; rw [e1]; omega

/-- The factors' block at point t, entry (r, 0), is the column's row 2000·t + r. -/
theorem n_block (c : Dev nD) (t : Fin cfg3.N) (r : Fin 2000) (p : Fin 100000) (hp : p.val = t.val * 2000 + r.val) :
    (iblk3 V c 1 t : FVec Ideal S2000x1 .f32) (ix2 r (0 : Fin 1)) = (V c main_v8 : FVec Ideal S100000x1 .f32) (ix2 p (0 : Fin 1)) := by
  obtain ⟨-, ⟨e0, e1⟩, -, -, -⟩ := idx_rows t
  unfold iblk3
  rw [View.read_apply]
  show V c main_v8 _ = V c main_v8 _
  refine congrArg _ (funext fun a => Fin.ext ?_)
  match a with
  | ⟨0, _⟩ => show win3_1.index t (0 : Fin 2) * 2000 + 1 * r.val = p.val; rw [e0, hp]; omega
  | ⟨1, _⟩ => show win3_1.index t (1 : Fin 2) * 1 + 1 * 0 = 0; rw [e1]

/-- The layer input's block at point t, entry (r, q), is the array's row 2000·t + r. -/
theorem x_block (c : Dev nD) (t : Fin cfg3.N) (r : Fin 2000) (q : Fin 64) (p : Fin 100000) (hp : p.val = t.val * 2000 + r.val) :
    (iblk3 V c 2 t : FVec Ideal S2000x64 .f32) (ix2 r q) = (V c main_v42_0 : FVec Ideal S100000x64 .f32) (ix2 p q) := by
  obtain ⟨-, -, ⟨e0, e1⟩, -, -⟩ := idx_rows t
  unfold iblk3
  rw [View.read_apply]
  show V c main_v42_0 _ = V c main_v42_0 _
  refine congrArg _ (funext fun a => Fin.ext ?_)
  match a with
  | ⟨0, _⟩ => show win3_2.index t (0 : Fin 2) * 2000 + 1 * r.val = p.val; rw [e0, hp]; omega
  | ⟨1, _⟩ => show win3_2.index t (1 : Fin 2) * 64 + 1 * q.val = q.val; rw [e1]; omega

/-- The layer's weight matrix is read whole at every point. -/
theorem w_block (c : Dev nD) (t : Fin cfg3.N) : (iblk3 V c 3 t : FVec Ideal S64x64 .f32) = (V c main_v54 : FVec Ideal S64x64 .f32) := by
  obtain ⟨⟨e0, e1⟩, -⟩ := idx_whole t
  funext y
  unfold iblk3
  rw [View.read_apply]
  show V c main_v54 _ = V c main_v54 _
  refine congrArg _ (funext fun a => Fin.ext ?_)
  match a with
  | ⟨0, _⟩ => show win3_3.index t (0 : Fin 2) * 64 + 1 * (y 0).val = (y 0).val; rw [e0]; omega
  | ⟨1, _⟩ => show win3_3.index t (1 : Fin 2) * 64 + 1 * (y 1).val = (y 1).val; rw [e1]; omega

/-- The layer's bias row is read whole at every point. -/
theorem b_block (c : Dev nD) (t : Fin cfg3.N) : (iblk3 V c 4 t : FVec Ideal S1x64 .f32) = (V c main_v57 : FVec Ideal S1x64 .f32) := by
  obtain ⟨-, ⟨e0, e1⟩⟩ := idx_whole t
  funext y
  unfold iblk3
  rw [View.read_apply]
  show V c main_v57 _ = V c main_v57 _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- The layer's output as one array of the arrays the launch finds. -/
abbrev out (c : Dev nD) : FVec Ideal S100000x64 .f32 :=
  outId (V c main_v52) (V c main_v8) (V c main_v42_0) (V c main_v54) (V c main_v57)

theorem row_lt (t : Fin cfg3.N) (r : Fin 2000) : t.val * 2000 + r.val < 100000 := by
  have ht : t.val < 50 := t.isLt.trans_eq (show cfg3.N = 50 from N_3)
  have := r.isLt; omega

/-- The body's first store at block entry (r, q) is the layer's output at row 2000·t + r. -/
theorem out_entry (c : Dev nD) (t : Fin cfg3.N) (r : Fin 2000) (q : Fin 64) :
    k3_pay1 (iblk3 V c 0 t) (iblk3 V c 1 t) (iblk3 V c 3 t) (iblk3 V c 4 t) (iblk3 V c 2 t) (ix2 r q)
      = out V c (ix2 (⟨t.val * 2000 + r.val, row_lt t r⟩ : Fin 100000) q) :=
  (Cert.KernelIdeal.Pay.pay3_out (iblk3 V c 0 t) (iblk3 V c 1 t) (iblk3 V c 3 t) (iblk3 V c 4 t) (iblk3 V c 2 t) r q).trans
    (id_block (iblk3 V c 0 t) (iblk3 V c 1 t) (iblk3 V c 3 t) (iblk3 V c 4 t) (iblk3 V c 2 t)
      (V c main_v52) (V c main_v8) (V c main_v42_0) (V c main_v54) (V c main_v57) r q ⟨t.val * 2000 + r.val, row_lt t r⟩
      (fun k => s_block V c t r k _ rfl) (n_block V c t r _ rfl) (x_block V c t r q _ rfl)
      (w_block V c t) (b_block V c t))

/-- What point t writes back to the first result is block t of the layer's output. -/
theorem flushed5_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, ⟨e0, e1⟩, -⟩ := idx_rows t
  funext j
  obtain ⟨r, q, rfl⟩ : ∃ (r : Fin 2000) (q : Fin 64), j = ix2 r q := ⟨j 0, j 1, eq_ix2 j⟩
  have hemb : ((cfg3.win 5).blk t).view.emb (ix2 r q) = ix2 (⟨t.val * 2000 + r.val, row_lt t r⟩ : Fin 100000) q := by
    funext a; apply Fin.ext
    match a with
    | ⟨0, _⟩ => show win3_5.index t (0 : Fin 2) * 2000 + 1 * r.val = t.val * 2000 + r.val; rw [e0]; omega
    | ⟨1, _⟩ => show win3_5.index t (1 : Fin 2) * 64 + 1 * q.val = q.val; rw [e1]; omega
  show k3_pay1 (iblk3 V c 0 t) (iblk3 V c 1 t) (iblk3 V c 3 t) (iblk3 V c 4 t) (iblk3 V c 2 t) (ix2 r q)
    = out V c (((cfg3.win 5).blk t).view.emb (ix2 r q))
  rw [hemb]
  exact out_entry V c t r q

/-- An entry is in point t's block of the first result iff each coordinate is in the block's range. -/
theorem mem_blk5 (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v58_0).slice (win3_5.rect t)).set ↔ _
  rw [View.set_slice_whole, Rect.mem_set_unit]
  exact Iff.rfl

/-- Every entry lies in the block of the point that owns its row: row p belongs to point p / 2000. -/
theorem cover5 (i : S100000x64.Idx) : ∃ t : Fin cfg3.N, (cfg3.win 5).flush t = true ∧ i ∈ ((cfg3.win 5).blk t).view.set := by
  have h0 : (i 0).val < 100000 := (i 0).isLt
  have h1 : (i 1).val < 64 := (i 1).isLt
  have hN : cfg3.N = 50 := N_3
  let t : Fin cfg3.N := ⟨(i 0).val / 2000, by rw [hN]; omega⟩
  obtain ⟨-, -, -, ⟨e0, e1⟩, -⟩ := idx_rows t
  have ht : t.val = (i 0).val / 2000 := rfl
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; rw [e0, ht]; omega
  | ⟨1, _⟩ => show win3_5.index t (1 : Fin 2) * 64 ≤ (i 1).val ∧ (i 1).val < win3_5.index t (1 : Fin 2) * 64 + 64; rw [e1]; omega

/-- After the launch the first result array is the layer's output. -/
theorem final5 (c : Dev nD) : (dat3 V c).arrAt 5 cfg3.N = out V c :=
  (dat3 V c).arrAt_eq_of_cover 5 (out V c) (fun t _ => flushed5_eq V c t) cover5

end Cert.KernelIdeal.Reg3

end
-- ==== Proof.KernelChain.lean ====
/-
  The kernel program's buffers, boundary by boundary, as functions of the argument arrays. With n the column of
  per-node factors and P the propagation along the edges (both computed by host operations from the edge lists),

    first launch     h₀ = x · n                                  (row by row)
    second launch    x₁ = max ((P h₀ · n) · W₀ + b₀) 0 + (x · Wres + bres),   h₁ = x₁ · n
    third launch     x₂ = max ((P h₁ · n) · W₁ + b₁) 0 + x₁,                  h₂ = x₂ · n
    fourth launch    x₃ = max ((P h₂ · n) · W₂ + b₂) 0 + x₂

  Each stretch of host operations applies its operations to the contents before it; each launch leaves its result
  arrays at the whole-array formulas of its region and every other buffer as it found it. The result buffer ends at x₃.
-/
import proofs.«124605_j37666863186543_1_alg».proof.Proof.Gen.KernelIdeal.Frame
import proofs.«124605_j37666863186543_1_alg».proof.Proof.KernelNet
import proofs.«124605_j37666863186543_1_alg».proof.Proof.Region0
import proofs.«124605_j37666863186543_1_alg».proof.Proof.Region1
import proofs.«124605_j37666863186543_1_alg».proof.Proof.Region2
import proofs.«124605_j37666863186543_1_alg».proof.Proof.Region3

noncomputable section

namespace Cert.KernelIdeal.Chain

open Cert.KernelIdeal Cert.KernelIdeal.Gen Cert.KernelIdeal.Host Cert.KernelIdeal.KShape Cert.KernelIdeal.Net
open Idealize.ShloMosaic Idealize.ShloMosaic.TcCoe Idealize.SL.Sem

variable (m : (ℓ : Loc nD τ sig) → Buf (Elt Ideal) ℓ) (ρ : Dev nD → PrngReg) (c : Dev nD)

/-! ## Before the first launch -/

theorem W1_v8 : W1 m ρ c (Proc.devRef .tc main_v8) = factors (m ((c : Thread nD τ).loc main_arg6)) := h0_v8 (W0 m ρ c)
theorem W1_arg0 : W1 m ρ c (Proc.devRef .tc main_arg0) = (m ((c : Thread nD τ).loc main_arg0)) := h0_arg0 (W0 m ρ c)
theorem W1_arg1 : W1 m ρ c (Proc.devRef .tc main_arg1) = (m ((c : Thread nD τ).loc main_arg1)) := h0_arg1 (W0 m ρ c)
theorem W1_arg2 : W1 m ρ c (Proc.devRef .tc main_arg2) = (m ((c : Thread nD τ).loc main_arg2)) := h0_arg2 (W0 m ρ c)
theorem W1_arg3 : W1 m ρ c (Proc.devRef .tc main_arg3) = (m ((c : Thread nD τ).loc main_arg3)) := h0_arg3 (W0 m ρ c)
theorem W1_arg4 : W1 m ρ c (Proc.devRef .tc main_arg4) = (m ((c : Thread nD τ).loc main_arg4)) := h0_arg4 (W0 m ρ c)
theorem W1_arg5 : W1 m ρ c (Proc.devRef .tc main_arg5) = (m ((c : Thread nD τ).loc main_arg5)) := h0_arg5 (W0 m ρ c)
theorem W1_arg6 : W1 m ρ c (Proc.devRef .tc main_arg6) = (m ((c : Thread nD τ).loc main_arg6)) := h0_arg6 (W0 m ρ c)

/-! ## After the first launch -/

theorem W2_v9 : W2 m ρ c (Proc.devRef .tc main_v9) = scaled (m ((c : Thread nD τ).loc main_arg0)) (factors (m ((c : Thread nD τ).loc main_arg6))) :=
  (W2_arr m ρ c 2).trans ((Reg0.final (V1 m ρ) c).trans (by
    show scaled (W1 m ρ c (Proc.devRef .tc main_arg0)) (W1 m ρ c (Proc.devRef .tc main_v8)) = _
    rw [W1_arg0 m ρ c, W1_v8 m ρ c]))
theorem W2_v8 : W2 m ρ c (Proc.devRef .tc main_v8) = factors (m ((c : Thread nD τ).loc main_arg6)) :=
  (W2_arr m ρ c 1).trans (((dat0 (V1 m ρ) c).arrAt_in 1 rfl _).trans ((A_eq0 (V1 m ρ) c 1).trans (W1_v8 m ρ c)))
theorem W2_arg0 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (W1_arg0 m ρ c)))
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)

/-! ## Before the second launch -/

theorem W3_v19 : W3 m ρ c (Proc.devRef .tc main_v19) = propagate (scaled (m ((c : Thread nD τ).loc main_arg0)) (factors (m ((c : Thread nD τ).loc main_arg6)))) (m ((c : Thread nD τ).loc main_arg5)) (m ((c : Thread nD τ).loc main_arg6)) :=
  (h1_v19 (W2 m ρ c)).trans (by rw [W2_v9 m ρ c, W2_arg5 m ρ c, W2_arg6 m ρ c])
theorem W3_v21 : W3 m ρ c (Proc.devRef .tc main_v21) = wmat0 (m ((c : Thread nD τ).loc main_arg1)) := (h1_v21 (W2 m ρ c)).trans (by rw [W2_arg1 m ρ c])
theorem W3_v24 : W3 m ρ c (Proc.devRef .tc main_v24) = row (bvec0 (m ((c : Thread nD τ).loc main_arg2))) := (h1_v24 (W2 m ρ c)).trans (by rw [W2_arg2 m ρ c])
theorem W3_v25 : W3 m ρ c (Proc.devRef .tc main_v25) = row (m ((c : Thread nD τ).loc main_arg4)) := (h1_v25 (W2 m ρ c)).trans (by rw [W2_arg4 m ρ c])
theorem W3_v8 : W3 m ρ c (Proc.devRef .tc main_v8) = factors (m ((c : Thread nD τ).loc main_arg6)) := (h1_v8 (W2 m ρ c)).trans (W2_v8 m ρ c)
theorem W3_arg0 : W3 m ρ c (Proc.devRef .tc main_arg0) = (m ((c : Thread nD τ).loc main_arg0)) := (h1_arg0 (W2 m ρ c)).trans (W2_arg0 m ρ c)
theorem W3_arg1 : W3 m ρ c (Proc.devRef .tc main_arg1) = (m ((c : Thread nD τ).loc main_arg1)) := (h1_arg1 (W2 m ρ c)).trans (W2_arg1 m ρ c)
theorem W3_arg2 : W3 m ρ c (Proc.devRef .tc main_arg2) = (m ((c : Thread nD τ).loc main_arg2)) := (h1_arg2 (W2 m ρ c)).trans (W2_arg2 m ρ c)
theorem W3_arg3 : W3 m ρ c (Proc.devRef .tc main_arg3) = (m ((c : Thread nD τ).loc main_arg3)) := (h1_arg3 (W2 m ρ c)).trans (W2_arg3 m ρ c)
theorem W3_arg5 : W3 m ρ c (Proc.devRef .tc main_arg5) = (m ((c : Thread nD τ).loc main_arg5)) := (h1_arg5 (W2 m ρ c)).trans (W2_arg5 m ρ c)
theorem W3_arg6 : W3 m ρ c (Proc.devRef .tc main_arg6) = (m ((c : Thread nD τ).loc main_arg6)) := (h1_arg6 (W2 m ρ c)).trans (W2_arg6 m ρ c)

/-! ## After the second launch -/

theorem out1_eq : Reg1.out (V3 m ρ) c = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show outRes (W3 m ρ c (Proc.devRef .tc main_v19)) (W3 m ρ c (Proc.devRef .tc main_v8)) (W3 m ρ c (Proc.devRef .tc main_arg0))
    (W3 m ρ c (Proc.devRef .tc main_v21)) (W3 m ρ c (Proc.devRef .tc main_v24)) (W3 m ρ c (Proc.devRef .tc main_arg3))
    (W3 m ρ c (Proc.devRef .tc main_v25)) = _
  rw [W3_v19 m ρ c, W3_v8 m ρ c, W3_arg0 m ρ c, W3_v21 m ρ c, W3_v24 m ρ c, W3_arg3 m ρ c, W3_v25 m ρ c]
  rfl
theorem W4_v26_0 : W4 m ρ c (Proc.devRef .tc main_v26_0) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 7).trans ((Reg1.final7 (V3 m ρ) c).trans (out1_eq m ρ c))
theorem W4_v26_1 : W4 m ρ c (Proc.devRef .tc main_v26_1) = scaled (x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (factors (m ((c : Thread nD τ).loc main_arg6))) :=
  (W4_arr m ρ c 8).trans ((Reg1.final8 (V3 m ρ) c).trans (by
    show scaled (Reg1.out (V3 m ρ) c) (W3 m ρ c (Proc.devRef .tc main_v8)) = _
    rw [out1_eq m ρ c, W3_v8 m ρ c]))
theorem W4_v8 : W4 m ρ c (Proc.devRef .tc main_v8) = factors (m ((c : Thread nD τ).loc main_arg6)) :=
  (W4_arr m ρ c 1).trans (((dat1 (V3 m ρ) c).arrAt_in 1 rfl _).trans ((A_eq1 (V3 m ρ) c 1).trans (W3_v8 m ρ c)))
theorem W4_arg1 : W4 m ρ c (Proc.devRef .tc main_arg1) = (m ((c : Thread nD τ).loc main_arg1)) := (W4_of_ne m ρ c main_arg1 (by decide)).trans (W3_arg1 m ρ c)
theorem W4_arg2 : W4 m ρ c (Proc.devRef .tc main_arg2) = (m ((c : Thread nD τ).loc main_arg2)) := (W4_of_ne m ρ c main_arg2 (by decide)).trans (W3_arg2 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)

/-! ## Before the third launch -/

theorem W5_v36 : W5 m ρ c (Proc.devRef .tc main_v36) = propagate (scaled (x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (factors (m ((c : Thread nD τ).loc main_arg6)))) (m ((c : Thread nD τ).loc main_arg5)) (m ((c : Thread nD τ).loc main_arg6)) :=
  (h2_v36 (W4 m ρ c)).trans (by rw [W4_v26_1 m ρ c, W4_arg5 m ρ c, W4_arg6 m ρ c])
theorem W5_v38 : W5 m ρ c (Proc.devRef .tc main_v38) = wmat1 (m ((c : Thread nD τ).loc main_arg1)) := (h2_v38 (W4 m ρ c)).trans (by rw [W4_arg1 m ρ c])
theorem W5_v41 : W5 m ρ c (Proc.devRef .tc main_v41) = row (bvec1 (m ((c : Thread nD τ).loc main_arg2))) := (h2_v41 (W4 m ρ c)).trans (by rw [W4_arg2 m ρ c])
theorem W5_v8 : W5 m ρ c (Proc.devRef .tc main_v8) = factors (m ((c : Thread nD τ).loc main_arg6)) := (h2_v8 (W4 m ρ c)).trans (W4_v8 m ρ c)
theorem W5_v26_0 : W5 m ρ c (Proc.devRef .tc main_v26_0) = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (h2_v26_0 (W4 m ρ c)).trans (W4_v26_0 m ρ c)
theorem W5_arg1 : W5 m ρ c (Proc.devRef .tc main_arg1) = (m ((c : Thread nD τ).loc main_arg1)) := (h2_arg1 (W4 m ρ c)).trans (W4_arg1 m ρ c)
theorem W5_arg2 : W5 m ρ c (Proc.devRef .tc main_arg2) = (m ((c : Thread nD τ).loc main_arg2)) := (h2_arg2 (W4 m ρ c)).trans (W4_arg2 m ρ c)
theorem W5_arg5 : W5 m ρ c (Proc.devRef .tc main_arg5) = (m ((c : Thread nD τ).loc main_arg5)) := (h2_arg5 (W4 m ρ c)).trans (W4_arg5 m ρ c)
theorem W5_arg6 : W5 m ρ c (Proc.devRef .tc main_arg6) = (m ((c : Thread nD τ).loc main_arg6)) := (h2_arg6 (W4 m ρ c)).trans (W4_arg6 m ρ c)

/-! ## After the third launch -/

theorem out2_eq : Reg2.out (V5 m ρ) c = x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show outId (W5 m ρ c (Proc.devRef .tc main_v36)) (W5 m ρ c (Proc.devRef .tc main_v8)) (W5 m ρ c (Proc.devRef .tc main_v26_0))
    (W5 m ρ c (Proc.devRef .tc main_v38)) (W5 m ρ c (Proc.devRef .tc main_v41)) = _
  rw [W5_v36 m ρ c, W5_v8 m ρ c, W5_v26_0 m ρ c, W5_v38 m ρ c, W5_v41 m ρ c]
  rfl
theorem W6_v42_0 : W6 m ρ c (Proc.devRef .tc main_v42_0) = x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr m ρ c 5).trans ((Reg2.final5 (V5 m ρ) c).trans (out2_eq m ρ c))
theorem W6_v42_1 : W6 m ρ c (Proc.devRef .tc main_v42_1) = scaled (x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (factors (m ((c : Thread nD τ).loc main_arg6))) :=
  (W6_arr m ρ c 6).trans ((Reg2.final6 (V5 m ρ) c).trans (by
    show scaled (Reg2.out (V5 m ρ) c) (W5 m ρ c (Proc.devRef .tc main_v8)) = _
    rw [out2_eq m ρ c, W5_v8 m ρ c]))
theorem W6_v8 : W6 m ρ c (Proc.devRef .tc main_v8) = factors (m ((c : Thread nD τ).loc main_arg6)) :=
  (W6_arr m ρ c 1).trans (((dat2 (V5 m ρ) c).arrAt_in 1 rfl _).trans ((A_eq2 (V5 m ρ) c 1).trans (W5_v8 m ρ c)))
theorem W6_arg1 : W6 m ρ c (Proc.devRef .tc main_arg1) = (m ((c : Thread nD τ).loc main_arg1)) := (W6_of_ne m ρ c main_arg1 (by decide)).trans (W5_arg1 m ρ c)
theorem W6_arg2 : W6 m ρ c (Proc.devRef .tc main_arg2) = (m ((c : Thread nD τ).loc main_arg2)) := (W6_of_ne m ρ c main_arg2 (by decide)).trans (W5_arg2 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)

/-! ## Before the fourth launch -/

theorem W7_v52 : W7 m ρ c (Proc.devRef .tc main_v52) = propagate (scaled (x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (factors (m ((c : Thread nD τ).loc main_arg6)))) (m ((c : Thread nD τ).loc main_arg5)) (m ((c : Thread nD τ).loc main_arg6)) :=
  (h3_v52 (W6 m ρ c)).trans (by rw [W6_v42_1 m ρ c, W6_arg5 m ρ c, W6_arg6 m ρ c])
theorem W7_v54 : W7 m ρ c (Proc.devRef .tc main_v54) = wmat2 (m ((c : Thread nD τ).loc main_arg1)) := (h3_v54 (W6 m ρ c)).trans (by rw [W6_arg1 m ρ c])
theorem W7_v57 : W7 m ρ c (Proc.devRef .tc main_v57) = row (bvec2 (m ((c : Thread nD τ).loc main_arg2))) := (h3_v57 (W6 m ρ c)).trans (by rw [W6_arg2 m ρ c])
theorem W7_v8 : W7 m ρ c (Proc.devRef .tc main_v8) = factors (m ((c : Thread nD τ).loc main_arg6)) := (h3_v8 (W6 m ρ c)).trans (W6_v8 m ρ c)
theorem W7_v42_0 : W7 m ρ c (Proc.devRef .tc main_v42_0) = x2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (h3_v42_0 (W6 m ρ c)).trans (W6_v42_0 m ρ c)

/-! ## After the fourth launch: the result -/

theorem out3_eq : Reg3.out (V7 m ρ) c = x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show outId (W7 m ρ c (Proc.devRef .tc main_v52)) (W7 m ρ c (Proc.devRef .tc main_v8)) (W7 m ρ c (Proc.devRef .tc main_v42_0))
    (W7 m ρ c (Proc.devRef .tc main_v54)) (W7 m ρ c (Proc.devRef .tc main_v57)) = _
  rw [W7_v52 m ρ c, W7_v8 m ρ c, W7_v42_0 m ρ c, W7_v54 m ρ c, W7_v57 m ρ c]
  rfl

/-- The result buffer at the last boundary is the third layer's output. -/
theorem result : W8 m ρ c (Proc.devRef .tc main_v58_0) = x3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 5).trans ((Reg3.final5 (V7 m ρ) c).trans (out3_eq m ρ c))

end Cert.KernelIdeal.Chain

end
-- ==== Proof.KernelBridge.lean ====
/-
  The kernels' layouts against the network's: the column of factors n (p, 0) is the per-node factor at p, a bias row
  b (0, q) is the bias at q; so each launch's whole-array formula is the network's layer, and the kernel program's
  result x₃ is the network of the argument arrays, with the host's propagation and per-node factors.
-/
import proofs.«124605_j37666863186543_1_alg».proof.Proof.KernelNet
import proofs.«124605_j37666863186543_1_alg».proof.Proof.Spec
import proofs.«124605_j37666863186543_1_alg».proof.Proof.LibColBcast
import Idealize.ShloMosaic.Lib.ValueLayout

noncomputable section

namespace Cert.KernelIdeal.Bridge

open Cert.KernelIdeal Cert.KernelIdeal.Gen Cert.KernelIdeal.Host Cert.KernelIdeal.KShape Cert.KernelIdeal.Net
open Idealize.ShloMosaic Idealize.ShloMosaic.ValueIdx

/-- The column of factors at (p, 0) is the per-node factor at p. -/
theorem factors_apply (dst : (⟨S1600000, .i32⟩ : BufTy).Contents (Elt Ideal)) (p : Fin 100000) :
    (factors dst : FVec Ideal S100000x1 .f32) (ix2 p (0 : Fin 1)) = (degPow dst : FVec Ideal S100000 .f32) (ix1 p) :=
  Cert.LibColBcast.shapeCast_a_a1_apply (degPow dst) shapeCasts_S100000_S100000x1 p 0

/-- A bias row at (0, q) is the bias at q. -/
theorem row_apply (b : (⟨S64, .f32⟩ : BufTy).Contents (Elt Ideal)) (q : Fin 64) :
    (row b : FVec Ideal S1x64 .f32) (ix2 (0 : Fin 1) q) = (b : FVec Ideal S64 .f32) (ix1 q) :=
  shapeCast_a_1a_apply b shapeCasts_S64_S1x64 0 q

/-- Rows times the column of factors: the network's scaling. -/
theorem scaled_eq (x : FVec Ideal S100000x64 .f32) (dst : (⟨S1600000, .i32⟩ : BufTy).Contents (Elt Ideal)) :
    scaled x (factors dst) = Cert.Spec.scale x (degPow dst) := by
  funext i
  obtain ⟨p, q, rfl⟩ : ∃ (p : Fin 100000) (q : Fin 64), i = ix2 p q := ⟨i 0, i 1, eq_ix2 i⟩
  rw [scaled_ix2, Cert.Spec.scale_ix2, factors_apply]

/-- The rectified entry over the kernels' layouts is the network's. -/
theorem rect_eq (s : FVec Ideal S100000x64 .f32) (dst : (⟨S1600000, .i32⟩ : BufTy).Contents (Elt Ideal))
    (w : FVec Ideal S64x64 .f32) (b : (⟨S64, .f32⟩ : BufTy).Contents (Elt Ideal)) (p : Fin 100000) (q : Fin 64) :
    rect s (factors dst) w (row b) p q = max (Cert.Spec.dense (Cert.Spec.scale s (degPow dst)) w b (ix2 p q)) Cert.Spec.zero := by
  unfold rect
  rw [Cert.Spec.dense_ix2, factors_apply, row_apply]
  simp only [Cert.Spec.scale_ix2]

/-- The first layer's whole-array formula is the network's first layer. -/
theorem outRes_eq (s : FVec Ideal S100000x64 .f32) (dst : (⟨S1600000, .i32⟩ : BufTy).Contents (Elt Ideal)) (x : FVec Ideal S100000x64 .f32)
    (w : FVec Ideal S64x64 .f32) (b : (⟨S64, .f32⟩ : BufTy).Contents (Elt Ideal)) (wres : FVec Ideal S64x64 .f32)
    (bres : (⟨S64, .f32⟩ : BufTy).Contents (Elt Ideal)) :
    outRes s (factors dst) x w (row b) wres (row bres) = Cert.Spec.layerRes s (degPow dst) x w b wres bres := by
  funext i
  obtain ⟨p, q, rfl⟩ : ∃ (p : Fin 100000) (q : Fin 64), i = ix2 p q := ⟨i 0, i 1, eq_ix2 i⟩
  show rect s (factors dst) w (row b) p q + ((∑ k : Fin 64, x (ix2 p k) * wres (ix2 k q)) + row bres (ix2 (0 : Fin 1) q))
    = max (Cert.Spec.dense (Cert.Spec.scale s (degPow dst)) w b (ix2 p q)) Cert.Spec.zero + Cert.Spec.dense x wres bres (ix2 p q)
  rw [rect_eq, Cert.Spec.dense_ix2 x wres bres, row_apply]

/-- A later layer's whole-array formula is the network's later layer. -/
theorem outId_eq (s : FVec Ideal S100000x64 .f32) (dst : (⟨S1600000, .i32⟩ : BufTy).Contents (Elt Ideal)) (x : FVec Ideal S100000x64 .f32)
    (w : FVec Ideal S64x64 .f32) (b : (⟨S64, .f32⟩ : BufTy).Contents (Elt Ideal)) :
    outId s (factors dst) x w (row b) = Cert.Spec.layerId s (degPow dst) x w b := by
  funext i
  obtain ⟨p, q, rfl⟩ : ∃ (p : Fin 100000) (q : Fin 64), i = ix2 p q := ⟨i 0, i 1, eq_ix2 i⟩
  show rect s (factors dst) w (row b) p q + x (ix2 p q)
    = max (Cert.Spec.dense (Cert.Spec.scale s (degPow dst)) w b (ix2 p q)) Cert.Spec.zero + x (ix2 p q)
  rw [rect_eq]

/-- The kernel program's result is the network of its arguments. -/
theorem x3_eq (x : (⟨S100000x64, .f32⟩ : BufTy).Contents (Elt Ideal)) (w : (⟨S3x64x64, .f32⟩ : BufTy).Contents (Elt Ideal))
    (b : (⟨S3x64, .f32⟩ : BufTy).Contents (Elt Ideal)) (wres : (⟨S64x64, .f32⟩ : BufTy).Contents (Elt Ideal))
    (bres : (⟨S64, .f32⟩ : BufTy).Contents (Elt Ideal)) (src dst : (⟨S1600000, .i32⟩ : BufTy).Contents (Elt Ideal)) :
    x3 x w b wres bres src dst
      = Cert.Spec.net (fun h => propagate h src dst) (degPow dst) x (wmat0 w) (wmat1 w) (wmat2 w) wres (bvec0 b) (bvec1 b) (bvec2 b) bres := by
  unfold x3 x2 x1 Cert.Spec.net
  simp only [outId_eq, outRes_eq, scaled_eq]

end Cert.KernelIdeal.Bridge

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.RefValue.lean ====
/-
  The reference program's result is the network of its arguments. The reference spells every step with whole-array host
  operations: the per-node factor laid along the rows by two broadcasts and multiplied in; the affine map as a
  matrix product plus the bias broadcast over the rows; the rectifier as a maximum against a zero array; the
  propagation as a gather and a scatter-add. Read at an entry (p, q) these are the network's
  x (p, q) · n p, Σₖ h (p, k) · w (k, q) + b q and max (·) 0.
-/
import proofs.«124605_j37666863186543_1_alg».proof.Proof.Gen.ReferenceIdeal.Read
import proofs.«124605_j37666863186543_1_alg».proof.Proof.Spec
import proofs.«124605_j37666863186543_1_alg».proof.Proof.LibDense
import proofs.«124605_j37666863186543_1_alg».proof.Proof.LibRowBias
import proofs.«124605_j37666863186543_1_alg».proof.Proof.LibColBcast

noncomputable section

namespace Cert.ReferenceIdeal.RefValue

open Cert.ReferenceIdeal Cert.ReferenceIdeal.Gen Cert.ReferenceIdeal.Read Idealize.ShloMosaic Idealize.ShloMosaic.ValueIdx

/-- The reference's contraction is the plain one. -/
theorem dot_eq : dot_S100000x64_S64x64_S100000x64_1_0_0_1_n_n = DotDims.plain 100000 64 64 := rfl

/-- Node rows sent along the edges, as the reference spells it. -/
def propagate (h : (⟨S100000x64, .f32⟩ : BufTy).Contents (Elt Ideal)) (src dst : (⟨S1600000, .i32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v18 (F := Ideal)) (val_main_v19 (F := Ideal) dst)
    (Host.gather (α := Ideal .f32) gather_S100000x64_S1600000x1_S1600000x64_1_0_n_n_0_1_164 h (val_main_v16 (F := Ideal) src))

/-- Rows times the per-node factor laid along them. -/
theorem scale_eq (y : FVec Ideal S100000x64 .f32) (n : FVec Ideal S100000 .f32) :
    mulf y (broadcastInDim S100000x64 ![0, 1] bcast_S100000x1_S100000x64_0_1 (broadcastInDim S100000x1 ![0] bcast_S100000_S100000x1_0 n))
      = Cert.Spec.scale y n := by
  funext i
  obtain ⟨p, q, rfl⟩ : ∃ (p : Fin 100000) (q : Fin 64), i = ix2 p q := ⟨i 0, i 1, eq_ix2 i⟩
  rw [mulf_apply, Cert.LibColBcast.bcast_col_apply, Cert.Spec.scale_ix2]

/-- The matrix product plus the bias laid over the rows. -/
theorem dense_eq (y : FVec Ideal S100000x64 .f32) (w : FVec Ideal S64x64 .f32) (b : FVec Ideal S64 .f32) :
    addf (Host.dotGeneral dot_S100000x64_S64x64_S100000x64_1_0_0_1_n_n none y w)
        (broadcastInDim S100000x64 ![0, 1] bcast_S1x64_S100000x64_0_1 (broadcastInDim S1x64 ![1] bcast_S64_S1x64_1 b))
      = Cert.Spec.dense y w b := by
  funext i
  obtain ⟨p, q, rfl⟩ : ∃ (p : Fin 100000) (q : Fin 64), i = ix2 p q := ⟨i 0, i 1, eq_ix2 i⟩
  rw [addf_apply, Cert.LibRowBias.bcast_row_apply, Cert.Spec.dense_ix2, dot_eq]
  simp only [Host.dotGeneral]
  rw [Cert.LibDense.plain_dotGeneral_apply]

/-- The maximum against the zero array, entry by entry. -/
theorem relu_apply (y : FVec Ideal S100000x64 .f32) (i : S100000x64.Idx) :
    maximumf y (broadcastInDim S100000x64 ![] bcast_S_S100000x64 (constant S_ .f32 0x00000000#32)) i = max (y i) Cert.Spec.zero := rfl

/-- The first layer as the reference spells it. -/
theorem layerRes_eq (s : FVec Ideal S100000x64 .f32) (n : FVec Ideal S100000 .f32) (x : FVec Ideal S100000x64 .f32)
    (w : FVec Ideal S64x64 .f32) (b : FVec Ideal S64 .f32) (wres : FVec Ideal S64x64 .f32) (bres : FVec Ideal S64 .f32) :
    addf
      (maximumf
        (addf (Host.dotGeneral dot_S100000x64_S64x64_S100000x64_1_0_0_1_n_n none
            (mulf s (broadcastInDim S100000x64 ![0, 1] bcast_S100000x1_S100000x64_0_1 (broadcastInDim S100000x1 ![0] bcast_S100000_S100000x1_0 n))) w)
          (broadcastInDim S100000x64 ![0, 1] bcast_S1x64_S100000x64_0_1 (broadcastInDim S1x64 ![1] bcast_S64_S1x64_1 b)))
        (broadcastInDim S100000x64 ![] bcast_S_S100000x64 (constant S_ .f32 0x00000000#32)))
      (addf (Host.dotGeneral dot_S100000x64_S64x64_S100000x64_1_0_0_1_n_n none x wres)
        (broadcastInDim S100000x64 ![0, 1] bcast_S1x64_S100000x64_0_1 (broadcastInDim S1x64 ![1] bcast_S64_S1x64_1 bres)))
      = Cert.Spec.layerRes s n x w b wres bres := by
  rw [scale_eq, dense_eq, dense_eq]
  funext i
  rw [addf_apply, relu_apply]
  rfl

/-- A later layer as the reference spells it. -/
theorem layerId_eq (s : FVec Ideal S100000x64 .f32) (n : FVec Ideal S100000 .f32) (x : FVec Ideal S100000x64 .f32)
    (w : FVec Ideal S64x64 .f32) (b : FVec Ideal S64 .f32) :
    addf
      (maximumf
        (addf (Host.dotGeneral dot_S100000x64_S64x64_S100000x64_1_0_0_1_n_n none
            (mulf s (broadcastInDim S100000x64 ![0, 1] bcast_S100000x1_S100000x64_0_1 (broadcastInDim S100000x1 ![0] bcast_S100000_S100000x1_0 n))) w)
          (broadcastInDim S100000x64 ![0, 1] bcast_S1x64_S100000x64_0_1 (broadcastInDim S1x64 ![1] bcast_S64_S1x64_1 b)))
        (broadcastInDim S100000x64 ![] bcast_S_S100000x64 (constant S_ .f32 0x00000000#32)))
      x
      = Cert.Spec.layerId s n x w b := by
  rw [scale_eq, dense_eq]
  funext i
  rw [addf_apply, relu_apply]
  rfl

section Stages

variable (x0 : (⟨S100000x64, .f32⟩ : BufTy).Contents (Elt Ideal)) (x1 : (⟨S3x64x64, .f32⟩ : BufTy).Contents (Elt Ideal)) (x2 : (⟨S3x64, .f32⟩ : BufTy).Contents (Elt Ideal)) (x3 : (⟨S64x64, .f32⟩ : BufTy).Contents (Elt Ideal)) (x4 : (⟨S64, .f32⟩ : BufTy).Contents (Elt Ideal)) (x5 x6 : (⟨S1600000, .i32⟩ : BufTy).Contents (Elt Ideal))

theorem v10_eq : val_main_v10 (F := Ideal) x0 x6 = Cert.Spec.scale x0 (val_main_v7 (F := Ideal) x6) :=
  scale_eq x0 (val_main_v7 (F := Ideal) x6)
theorem v20_eq : val_main_v20 (F := Ideal) x0 x5 x6 = propagate (val_main_v10 (F := Ideal) x0 x6) x5 x6 := rfl
theorem v37_eq : val_main_v37 (F := Ideal) x0 x1 x2 x3 x4 x5 x6
    = Cert.Spec.layerRes (val_main_v20 (F := Ideal) x0 x5 x6) (val_main_v7 (F := Ideal) x6) x0 (val_main_v25 (F := Ideal) x1)
        (val_main_v28 (F := Ideal) x2) x3 x4 :=
  layerRes_eq (val_main_v20 (F := Ideal) x0 x5 x6) (val_main_v7 (F := Ideal) x6) x0 (val_main_v25 (F := Ideal) x1)
    (val_main_v28 (F := Ideal) x2) x3 x4
theorem v40_eq : val_main_v40 (F := Ideal) x0 x1 x2 x3 x4 x5 x6
    = Cert.Spec.scale (val_main_v37 (F := Ideal) x0 x1 x2 x3 x4 x5 x6) (val_main_v7 (F := Ideal) x6) :=
  scale_eq (val_main_v37 (F := Ideal) x0 x1 x2 x3 x4 x5 x6) (val_main_v7 (F := Ideal) x6)
theorem v50_eq : val_main_v50 (F := Ideal) x0 x1 x2 x3 x4 x5 x6 = propagate (val_main_v40 (F := Ideal) x0 x1 x2 x3 x4 x5 x6) x5 x6 := rfl
theorem v63_eq : val_main_v63 (F := Ideal) x0 x1 x2 x3 x4 x5 x6
    = Cert.Spec.layerId (val_main_v50 (F := Ideal) x0 x1 x2 x3 x4 x5 x6) (val_main_v7 (F := Ideal) x6)
        (val_main_v37 (F := Ideal) x0 x1 x2 x3 x4 x5 x6) (val_main_v55 (F := Ideal) x1) (val_main_v58 (F := Ideal) x2) :=
  layerId_eq (val_main_v50 (F := Ideal) x0 x1 x2 x3 x4 x5 x6) (val_main_v7 (F := Ideal) x6)
    (val_main_v37 (F := Ideal) x0 x1 x2 x3 x4 x5 x6) (val_main_v55 (F := Ideal) x1) (val_main_v58 (F := Ideal) x2)
theorem v66_eq : val_main_v66 (F := Ideal) x0 x1 x2 x3 x4 x5 x6
    = Cert.Spec.scale (val_main_v63 (F := Ideal) x0 x1 x2 x3 x4 x5 x6) (val_main_v7 (F := Ideal) x6) :=
  scale_eq (val_main_v63 (F := Ideal) x0 x1 x2 x3 x4 x5 x6) (val_main_v7 (F := Ideal) x6)
theorem v76_eq : val_main_v76 (F := Ideal) x0 x1 x2 x3 x4 x5 x6 = propagate (val_main_v66 (F := Ideal) x0 x1 x2 x3 x4 x5 x6) x5 x6 := rfl
theorem v89_eq : val_main_v89 (F := Ideal) x0 x1 x2 x3 x4 x5 x6
    = Cert.Spec.layerId (val_main_v76 (F := Ideal) x0 x1 x2 x3 x4 x5 x6) (val_main_v7 (F := Ideal) x6)
        (val_main_v63 (F := Ideal) x0 x1 x2 x3 x4 x5 x6) (val_main_v81 (F := Ideal) x1) (val_main_v84 (F := Ideal) x2) :=
  layerId_eq (val_main_v76 (F := Ideal) x0 x1 x2 x3 x4 x5 x6) (val_main_v7 (F := Ideal) x6)
    (val_main_v63 (F := Ideal) x0 x1 x2 x3 x4 x5 x6) (val_main_v81 (F := Ideal) x1) (val_main_v84 (F := Ideal) x2)

/-- The reference's result is the network of its arguments. -/
theorem result_eq : val_main_v89 (F := Ideal) x0 x1 x2 x3 x4 x5 x6
    = Cert.Spec.net (fun h => propagate h x5 x6) (val_main_v7 (F := Ideal) x6) x0 (val_main_v25 (F := Ideal) x1) (val_main_v55 (F := Ideal) x1)
        (val_main_v81 (F := Ideal) x1) x3 (val_main_v28 (F := Ideal) x2) (val_main_v58 (F := Ideal) x2) (val_main_v84 (F := Ideal) x2) x4 := by
  rw [v89_eq, v76_eq, v66_eq, v63_eq, v50_eq, v40_eq, v37_eq, v20_eq, v10_eq]
  rfl

end Stages

end Cert.ReferenceIdeal.RefValue

end
-- ==== Proof.Agree.lean ====
/-
  The host operations both programs share are the same functions: the propagation along the edges, the per-node factors,
  and each layer's weight matrix and bias cut out of the stacked arguments are spelt by the same operations on both
  sides, so the network of the arguments is one term whichever program's spelling is used.
-/
import proofs.«124605_j37666863186543_1_alg».proof.Proof.KernelHost
import proofs.«124605_j37666863186543_1_alg».proof.Proof.RefValue

noncomputable section

namespace Cert.Agree

open Idealize.ShloMosaic

variable (x0 : (⟨Cert.ReferenceIdeal.S100000x64, .f32⟩ : BufTy).Contents (Elt Ideal)) (x1 : (⟨Cert.ReferenceIdeal.S3x64x64, .f32⟩ : BufTy).Contents (Elt Ideal)) (x2 : (⟨Cert.ReferenceIdeal.S3x64, .f32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 x6 : (⟨Cert.ReferenceIdeal.S1600000, .i32⟩ : BufTy).Contents (Elt Ideal))

theorem propagate_eq : (fun h => Cert.ReferenceIdeal.RefValue.propagate h x5 x6) = (fun h => Cert.KernelIdeal.Host.propagate (F := Ideal) h x5 x6) := rfl
theorem degPow_eq : Cert.ReferenceIdeal.Read.val_main_v7 (F := Ideal) x6 = Cert.KernelIdeal.Host.degPow (F := Ideal) x6 := rfl
theorem wmat0_eq : Cert.ReferenceIdeal.Read.val_main_v25 (F := Ideal) x1 = Cert.KernelIdeal.Host.wmat0 (F := Ideal) x1 := rfl
theorem wmat1_eq : Cert.ReferenceIdeal.Read.val_main_v55 (F := Ideal) x1 = Cert.KernelIdeal.Host.wmat1 (F := Ideal) x1 := rfl
theorem wmat2_eq : Cert.ReferenceIdeal.Read.val_main_v81 (F := Ideal) x1 = Cert.KernelIdeal.Host.wmat2 (F := Ideal) x1 := rfl
theorem bvec0_eq : Cert.ReferenceIdeal.Read.val_main_v28 (F := Ideal) x2 = Cert.KernelIdeal.Host.bvec0 (F := Ideal) x2 := rfl
theorem bvec1_eq : Cert.ReferenceIdeal.Read.val_main_v58 (F := Ideal) x2 = Cert.KernelIdeal.Host.bvec1 (F := Ideal) x2 := rfl
theorem bvec2_eq : Cert.ReferenceIdeal.Read.val_main_v84 (F := Ideal) x2 = Cert.KernelIdeal.Host.bvec2 (F := Ideal) x2 := rfl

/-- The reference's network term is the kernel program's. -/
theorem net_eq :
    Cert.Spec.net (fun h => Cert.ReferenceIdeal.RefValue.propagate h x5 x6) (Cert.ReferenceIdeal.Read.val_main_v7 (F := Ideal) x6) x0
        (Cert.ReferenceIdeal.Read.val_main_v25 (F := Ideal) x1) (Cert.ReferenceIdeal.Read.val_main_v55 (F := Ideal) x1)
        (Cert.ReferenceIdeal.Read.val_main_v81 (F := Ideal) x1) x3 (Cert.ReferenceIdeal.Read.val_main_v28 (F := Ideal) x2)
        (Cert.ReferenceIdeal.Read.val_main_v58 (F := Ideal) x2) (Cert.ReferenceIdeal.Read.val_main_v84 (F := Ideal) x2) x4
      = Cert.Spec.net (fun h => Cert.KernelIdeal.Host.propagate (F := Ideal) h x5 x6) (Cert.KernelIdeal.Host.degPow (F := Ideal) x6) x0
        (Cert.KernelIdeal.Host.wmat0 (F := Ideal) x1) (Cert.KernelIdeal.Host.wmat1 (F := Ideal) x1) (Cert.KernelIdeal.Host.wmat2 (F := Ideal) x1) x3
        (Cert.KernelIdeal.Host.bvec0 (F := Ideal) x2) (Cert.KernelIdeal.Host.bvec1 (F := Ideal) x2) (Cert.KernelIdeal.Host.bvec2 (F := Ideal) x2) x4 := by
  rw [propagate_eq, degPow_eq, wmat0_eq, wmat1_eq, wmat2_eq, bvec0_eq, bvec1_eq, bvec2_eq]

end Cert.Agree

end
-- ==== Proof.lean ====
/-
  The certificate of the three-layer graph network kernel against its jnp reference, over the extended reals.

  The kernel program computes the network in four kernel launches (the degree scaling, then one launch per layer: the
  rectified affine map of the scaled propagated rows plus the residual, and the same scaled again for the next layer)
  among host operations (the per-node factors from the in-degrees, and the propagation of node rows along the edges
  before every layer). The reference spells the same network with whole-array host operations only. Over the extended
  reals the roundings to bf16 in front of the matrix unit are the identity, a matrix product into a zero accumulator is
  the plain sum over the contracted axis, and no other law is needed: both programs end at the one function
  `Cert.Spec.net` of the seven arguments, entry by entry, so the precondition is never opened.

  The frames of the two kernel programs are the generated ones; the reference's frame is its generated run with the
  result dropped; the idealization rewrote no operation, so there is nothing to preserve beyond the program's own text.
-/
import proofs.«124605_j37666863186543_1_alg».proof.Defs
import proofs.«124605_j37666863186543_1_alg».proof.Proof.Gen.Kernel
import proofs.«124605_j37666863186543_1_alg».proof.Proof.Gen.Kernel.Skeleton
import proofs.«124605_j37666863186543_1_alg».proof.Proof.Gen.Kernel.Launch
import proofs.«124605_j37666863186543_1_alg».proof.Proof.Gen.Kernel.Points
import proofs.«124605_j37666863186543_1_alg».proof.Proof.Gen.Kernel.Frame
import proofs.«124605_j37666863186543_1_alg».proof.Proof.Gen.KernelIdeal
import proofs.«124605_j37666863186543_1_alg».proof.Proof.Gen.KernelIdeal.Skeleton
import proofs.«124605_j37666863186543_1_alg».proof.Proof.Gen.KernelIdeal.Launch
import proofs.«124605_j37666863186543_1_alg».proof.Proof.Gen.KernelIdeal.Points
import proofs.«124605_j37666863186543_1_alg».proof.Proof.Gen.KernelIdeal.Frame
import proofs.«124605_j37666863186543_1_alg».proof.Proof.Gen.ReferenceIdeal
import proofs.«124605_j37666863186543_1_alg».proof.Proof.Gen.Pre_finite_inputs
import proofs.«124605_j37666863186543_1_alg».proof.Proof.Gen.ReferenceIdeal.Run
import proofs.«124605_j37666863186543_1_alg».proof.Proof.Gen.ReferenceIdeal.Read
import proofs.«124605_j37666863186543_1_alg».proof.Proof.RunValue
import proofs.«124605_j37666863186543_1_alg».proof.Proof.KernelChain
import proofs.«124605_j37666863186543_1_alg».proof.Proof.KernelBridge
import proofs.«124605_j37666863186543_1_alg».proof.Proof.RefValue
import proofs.«124605_j37666863186543_1_alg».proof.Proof.Agree
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel program is the kernel program's own text read over the extended reals. -/
theorem preserves : Cert.preserves_Kernel_KernelIdeal := trivial

/-- From memories agreeing on the arguments both idealized programs end at the network of the arguments: the kernel
    program by its launches' whole-array formulas chained through its host operations, the reference by its
    operations read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Net.x3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v89_eq, Cert.ReferenceIdeal.RefValue.result_eq, Cert.Agree.net_eq,
      h0, h1, h2, h3, h4, h5, h6]
    exact (Cert.KernelIdeal.Bridge.x3_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
